-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S24x1 : Shape := ⟨2, ![24, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_
  bcast_S_S24x1 : S_.BroadcastsInDim S24x1 (![] : Fin 0 → Fin S24x1.rank)
  reducesTo_S24x1_S_d0_1 : S24x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x24 .f32) (main_arg10 : FVec F S24 .f32) (main_arg11 : FVec F S24x1 .f32) (main_arg12 : FVec F S1 .f32) (main_v33 : IVec S_ 1) : IVec S_ 1 :=
  let main_v34 : FVec F S64x24 .f32 := Host.absf main_arg9
  let main_cst_12 : FVec F S_ .f32 := constant S_ .f32 0x7F800000#32
  let main_v35 : FVec F S64x24 .f32 := broadcastInDim S64x24 ![] bcast_S_S64x24 main_cst_12
  let main_v36 : IVec S64x24 1 := cmpf .olt main_v34 main_v35
  let main_c_13 : IVec S_ 1 := constantI S_ 1 1#1
  let main_v37 : IVec S_ 1 := (fun x v => Host.reduce IntOp.andi x v reducesTo_S64x24_S_d0_1 h_S_) main_v36 main_c_13
  let main_v38 : IVec S_ 1 := andi main_v33 main_v37
  let main_v39 : FVec F S24 .f32 := Host.absf main_arg10
  let main_cst_14 : FVec F S_ .f32 := constant S_ .f32 0x7F800000#32
  let main_v40 : FVec F S24 .f32 := broadcastInDim S24 ![] bcast_S_S24 main_cst_14
  let main_v41 : IVec S24 1 := cmpf .olt main_v39 main_v40
  let main_c_15 : IVec S_ 1 := constantI S_ 1 1#1
  let main_v42 : IVec S_ 1 := (fun x v => Host.reduce IntOp.andi x v reducesTo_S24_S_d0 h_S_) main_v41 main_c_15
  let main_v43 : IVec S_ 1 := andi main_v38 main_v42
  let main_v44 : FVec F S24x1 .f32 := Host.absf main_arg11
  let main_cst_16 : FVec F S_ .f32 := constant S_ .f32 0x7F800000#32
  let main_v45 : FVec F S24x1 .f32 := broadcastInDim S24x1 ![] bcast_S_S24x1 main_cst_16
  let main_v46 : IVec S24x1 1 := cmpf .olt main_v44 main_v45
  let main_c_17 : IVec S_ 1 := constantI S_ 1 1#1
  let main_v47 : IVec S_ 1 := (fun x v => Host.reduce IntOp.andi x v reducesTo_S24x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64 .f32) (main_arg8 : FVec F S64 .f32) (main_arg9 : FVec F S64x24 .f32) (main_arg10 : FVec F S24 .f32) (main_arg11 : FVec F S24x1 .f32) (main_arg12 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x64 .f32) (main_arg6 : FVec F S64 .f32) (main_arg7 : FVec F S64 .f32) (main_arg8 : FVec F S64 .f32) (main_arg9 : FVec F S64x24 .f32) (main_arg10 : FVec F S24 .f32) (main_arg11 : FVec F S24x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S24x1 : Shape := ⟨2, ![24, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512x1 : Shape := ⟨2, ![512, 1]⟩
abbrev S512x24 : Shape := ⟨2, ![512, 24]⟩
abbrev S1x24 : Shape := ⟨2, ![1, 24]⟩
abbrev S1x1 : Shape := ⟨2, ![1, 1]⟩

abbrev nBuf : Space → Nat
  | .hbm => 104
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x24, .f32⟩
  | .hbm, ⟨10, _⟩ => ⟨S24, .f32⟩
  | .hbm, ⟨11, _⟩ => ⟨S24x1, .f32⟩
  | .hbm, ⟨12, _⟩ => ⟨S1, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x1, .f32⟩
  | .hbm, ⟨87, _⟩ => ⟨S1700000x64, .f32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S512x64, .f32⟩
  | .hbm, ⟨101, _⟩ => ⟨S100000x1, .i32⟩
  | .hbm, ⟨102, _⟩ => ⟨S512x64, .f32⟩
  | .hbm, ⟨103, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S512x64, .f32⟩
  | .local _ .vmem, ⟨11, _⟩ => ⟨S64, .f32⟩
  | .local _ .vmem, ⟨12, _⟩ => ⟨S64, .f32⟩
  | .local _ .vmem, ⟨13, _⟩ => ⟨S64x24, .f32⟩
  | .local _ .vmem, ⟨14, _⟩ => ⟨S24, .f32⟩
  | .local _ .vmem, ⟨15, _⟩ => ⟨S24x1, .f32⟩
  | .local _ .vmem, ⟨16, _⟩ => ⟨S1, .f32⟩
  | .local _ .vmem, ⟨17, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x24 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S24 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S24x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  reduces_S512x64_S64 : S512x64.Reduces [0] S64
  shapeCasts_S64_S1x64 : S64.ShapeCasts S1x64
  broadcasts_S1x64_S512x64 : S1x64.Broadcasts S512x64
  inb_S64_S64_0 : ∀ a, (![0] : Fin 1 → Nat) a + S64.size a ≤ S64.size a
  h_S64 : 0 < S64.numel
  inb_S64x24_S64x24_0_0 : ∀ a, (![0, 0] : Fin 2 → Nat) a + S64x24.size a ≤ S64x24.size a
  h_S64x24 : 0 < S64x24.numel
  inb_S24_S24_0 : ∀ a, (![0] : Fin 1 → Nat) a + S24.size a ≤ S24.size a
  h_S24 : 0 < S24.numel
  shapeCasts_S24_S1x24 : S24.ShapeCasts S1x24
  broadcasts_S1x24_S512x24 : S1x24.Broadcasts S512x24
  inb_S24x1_S24x1_0_0 : ∀ a, (![0, 0] : Fin 2 → Nat) a + S24x1.size a ≤ S24x1.size a
  h_S24x1 : 0 < S24x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  dot_S512x64_S64x24_S512x24_1_0_0_1_n_n_wf : DotDims.WF S512x64 S64x24 S512x24 [1] [0] [0] [1] [] []
  dot_S512x24_S24x1_S512x1_1_0_0_1_n_n_wf : DotDims.WF S512x24 S24x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S512x64.size a
  hwx2_0 : ∀ i : grid2.Coords, EltTy.bits .f32 = 32 ∨ (Rect.block (s := S512x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x24.size a ≤ S64x24.size a
  hwx2_3 : ∀ i : grid2.Coords, EltTy.bits .f32 = 32 ∨ (Rect.block (s := S64x24) S64x24.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S24.size a ≤ S24.size a
  hwx2_4 : ∀ i : grid2.Coords, EltTy.bits .f32 = 32 ∨ (Rect.block (s := S24) S24.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S24x1.size a ≤ S24x1.size a
  hwx2_5 : ∀ i : grid2.Coords, EltTy.bits .f32 = 32 ∨ (Rect.block (s := S24x1) S24x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x1.size a ≤ S512x1.size a
  hwx2_7 : ∀ i : grid2.Coords, EltTy.bits .f32 = 32 ∨ (Rect.block (s := S512x1) S512x1.size (cc2_transform_7 i) (hinb2_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x24_S512x24_1_0_0_1_n_n : DotDims S512x64 S64x24 S512x24 where
  lhsContracting := [1]
  rhsContracting := [0]
  lhsNonContracting := [0]
  rhsNonContracting := [1]
  lhsBatch := []
  rhsBatch := []
  wf := dot_S512x64_S64x24_S512x24_1_0_0_1_n_n_wf
def dot_S512x24_S24x1_S512x1_1_0_0_1_n_n : DotDims S512x24 S24x1 S512x1 where
  lhsContracting := [1]
  rhsContracting := [0]
  lhsNonContracting := [0]
  rhsNonContracting := [1]
  lhsBatch := []
  rhsBatch := []
  wf := dot_S512x24_S24x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S512x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x24.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S24.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S24x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v69) S512x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S24x1 : Shape := ⟨2, ![24, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512x24 : Shape := ⟨2, ![512, 24]⟩
abbrev S1x24 : Shape := ⟨2, ![1, 24]⟩
abbrev S512x1 : Shape := ⟨2, ![512, 1]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x64, .f32⟩
  | 6 => ⟨S64, .f32⟩
  | 7 => ⟨S64, .f32⟩
  | 8 => ⟨S64, .f32⟩
  | 9 => ⟨S64x24, .f32⟩
  | 10 => ⟨S24, .f32⟩
  | 11 => ⟨S24x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S_, .f32⟩
  | 5 => ⟨S512x64, .f32⟩
  | 6 => ⟨S100000x1, .i32⟩
  | 7 => ⟨S512x64, .f32⟩
  | 8 => ⟨S_, .f32⟩
  | 9 => ⟨S64, .f32⟩
  | 10 => ⟨S_, .f32⟩
  | 11 => ⟨S64, .f32⟩
  | 12 => ⟨S64, .f32⟩
  | 13 => ⟨S_, .i32⟩
  | 14 => ⟨S_, .f32⟩
  | 15 => ⟨S64, .f32⟩
  | 16 => ⟨S1x64, .f32⟩
  | 17 => ⟨S_, .f32⟩
  | 18 => ⟨S1x64, .f32⟩
  | 19 => ⟨S1x64, .f32⟩
  | 20 => ⟨S512x64, .f32⟩
  | 21 => ⟨S512x64, .f32⟩
  | 22 => ⟨S512x64, .f32⟩
  | 23 => ⟨S_, .f32⟩
  | 24 => ⟨S_, .f32⟩
  | 25 => ⟨S_, .f32⟩
  | 26 => ⟨S_, .f32⟩
  | 27 => ⟨S64, .f32⟩
  | 28 => ⟨S64, .f32⟩
  | 29 => ⟨S64, .f32⟩
  | 30 => ⟨S_, .f32⟩
  | 31 => ⟨S_, .i1⟩
  | 32 => ⟨S_, .f32⟩
  | 33 => ⟨S_, .f32⟩
  | 34 => ⟨S64, .f32⟩
  | 35 => ⟨S64, .f32⟩
  | 36 => ⟨S1x64, .f32⟩
  | 37 => ⟨S512x64, .f32⟩
  | 38 => ⟨S512x64, .f32⟩
  | 39 => ⟨S_, .f32⟩
  | 40 => ⟨S64, .f32⟩
  | 41 => ⟨S64, .f32⟩
  | 42 => ⟨S64, .f32⟩
  | 43 => ⟨S1x64, .f32⟩
  | 44 => ⟨S512x64, .f32⟩
  | 45 => ⟨S512x64, .f32⟩
  | 46 => ⟨S1x64, .f32⟩
  | 47 => ⟨S512x64, .f32⟩
  | 48 => ⟨S512x64, .f32⟩
  | 49 => ⟨S1x64, .f32⟩
  | 50 => ⟨S512x64, .f32⟩
  | 51 => ⟨S512x64, .f32⟩
  | 52 => ⟨S512x24, .f32⟩
  | 53 => ⟨S1x24, .f32⟩
  | 54 => ⟨S512x24, .f32⟩
  | 55 => ⟨S512x24, .f32⟩
  | 56 => ⟨S_, .f32⟩
  | 57 => ⟨S512x24, .f32⟩
  | 58 => ⟨S512x24, .f32⟩
  | 59 => ⟨S512x1, .f32⟩
  | 60 => ⟨S1x1, .f32⟩
  | 61 => ⟨S512x1, .f32⟩
  | 62 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v55 : Ref sig .tc := ⟨.hbm, 89, rfl⟩
abbrev main_c_13 : Ref sig .tc := ⟨.hbm, 90, rfl⟩
abbrev main_v56 : Ref sig .tc := ⟨.hbm, 91, rfl⟩
abbrev main_v57 : Ref sig .tc := ⟨.hbm, 92, rfl⟩
abbrev main_c_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_15 : Ref sig .tc := ⟨.hbm, 99, rfl⟩
abbrev main_v63 : Ref sig .tc := ⟨.hbm, 100, rfl⟩
abbrev main_v64 : Ref sig .tc := ⟨.hbm, 101, rfl⟩
abbrev main_c_16 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_17 : Ref sig .tc := ⟨.hbm, 110, rfl⟩
abbrev main_v72 : Ref sig .tc := ⟨.hbm, 111, rfl⟩
abbrev main_v73 : Ref sig .tc := ⟨.hbm, 112, rfl⟩
abbrev main_c_18 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_19 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call3_cst : Ref sig .tc := ⟨.hbm, 129, rfl⟩
abbrev main_call3_v0 : Ref sig .tc := ⟨.hbm, 130, rfl⟩
abbrev main_v88 : Ref sig .tc := ⟨.hbm, 131, rfl⟩
abbrev main_cst_20 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_21 : Ref sig .tc := ⟨.hbm, 136, rfl⟩
abbrev main_v92 : Ref sig .tc := ⟨.hbm, 137, rfl⟩
abbrev main_cst_22 : Ref sig .tc := ⟨.hbm, 138, rfl⟩
abbrev main_v93 : Ref sig .tc := ⟨.hbm, 139, rfl⟩
abbrev main_v94 : Ref sig .tc := ⟨.hbm, 140, rfl⟩
abbrev main_c_23 : Ref sig .tc := ⟨.hbm, 141, rfl⟩
abbrev main_call4_cst : Ref sig .tc := ⟨.hbm, 142, rfl⟩
abbrev main_call4_v0 : Ref sig .tc := ⟨.hbm, 143, rfl⟩
abbrev main_call4_v1 : Ref sig .tc := ⟨.hbm, 144, rfl⟩
abbrev main_call4_cst_0 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_call4_v5 : Ref sig .tc := ⟨.hbm, 149, rfl⟩
abbrev main_call4_v6 : Ref sig .tc := ⟨.hbm, 150, rfl⟩
abbrev main_call4_v7 : Ref sig .tc := ⟨.hbm, 151, rfl⟩
abbrev main_call4_cst_1 : Ref sig .tc := ⟨.hbm, 152, rfl⟩
abbrev main_call4_v8 : Ref sig .tc := ⟨.hbm, 153, rfl⟩
abbrev main_call4_cst_2 : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_cst_3 : Ref sig .tc := ⟨.hbm, 158, rfl⟩
abbrev main_call4_v12 : Ref sig .tc := ⟨.hbm, 159, rfl⟩
abbrev main_call4_cst_4 : Ref sig .tc := ⟨.hbm, 160, rfl⟩
abbrev main_call4_call0_v0 : Ref sig .tc := ⟨.hbm, 161, rfl⟩
abbrev main_call4_call0_v1 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_cst_24 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_call5_cst : Ref sig .tc := ⟨.hbm, 184, rfl⟩
abbrev main_call5_v0 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  reducesTo_S512x64_S64_d0 : S512x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S1x64_S512x64_0_1 : S1x64.BroadcastsInDim S512x64 (![0, 1] : Fin 2 → Fin S512x64.rank)
  bcast_S24_S1x24_1 : S24.BroadcastsInDim S1x24 (![1] : Fin 1 → Fin S1x24.rank)
  bcast_S1x24_S512x24_0_1 : S1x24.BroadcastsInDim S512x24 (![0, 1] : Fin 2 → Fin S512x24.rank)
  bcast_S_S512x24 : S_.BroadcastsInDim S512x24 (![] : Fin 0 → Fin S512x24.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  dot_S512x64_S64x24_S512x24_1_0_0_1_n_n_wf : DotDims.WF S512x64 S64x24 S512x24 [1] [0] [0] [1] [] []
  dot_S512x24_S24x1_S512x1_1_0_0_1_n_n_wf : DotDims.WF S512x24 S24x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x24_S512x24_1_0_0_1_n_n : DotDims S512x64 S64x24 S512x24 where
  lhsContracting := [1]
  rhsContracting := [0]
  lhsNonContracting := [0]
  rhsNonContracting := [1]
  lhsBatch := []
  rhsBatch := []
  wf := dot_S512x64_S64x24_S512x24_1_0_0_1_n_n_wf
def dot_S512x24_S24x1_S512x1_1_0_0_1_n_n : DotDims S512x24 S24x1 S512x1 where
  lhsContracting := [1]
  rhsContracting := [0]
  lhsNonContracting := [0]
  rhsNonContracting := [1]
  lhsBatch := []
  rhsBatch := []
  wf := dot_S512x24_S24x1_S512x1_1_0_0_1_n_n_wf

class Facts : Prop extends Facts₀ where

variable [Facts]
-- ==== Proof.Spec.lean ====
/-
  The function both programs compute, stated once over whole arrays.

  A graph on 100000 nodes is given by 1600000 directed edges (a row of sources and a row of targets); one self-loop
  per node is appended, so there are 1700000 edges. With deg(n) the number of edges whose target is n,
  dis(n) = deg(n)^(-1/2) where deg(n) > 0 and 0 elsewhere, and norm(e) = dis(src e) · dis(dst e), one
  convolution layer takes node features y to

      relu( (sum over edges e with dst e = n of y(src e, ·) · norm(e)) + bias ).

  Two layers are applied, to x·W1 (128 features) and to (layer one)·W2 (64 features); the node rows are then summed
  per graph (`batch` names each node's graph, 512 graphs), which is the second result. The first result is that
  512 × 64 array normalised over its 512 rows (mean and centred variance over the rows, eps inside the square root,
  scale gamma and shift beta), passed through a 64 → 24 linear layer with relu and a 24 → 1 linear layer.

  Every definition below is a composition of the host-side array operations (scatter-add, gather, broadcast,
  contraction) in the order written above; nothing is evaluated.
-/
import proofs.«141279_j45071386804958_1_alg».proof.ReferenceIdeal

noncomputable section

namespace Cert.Spec

open Idealize.ShloMosaic Idealize.SL.Sem
open Cert.ReferenceIdeal Cert.ReferenceIdeal.Facts₀ Cert.ReferenceIdeal.Facts

variable {F : FTy → Type} [FloatOps F] [Cert.ReferenceIdeal.Facts]

/-- The contents of a tensor value of shape `s` and element type `e`. -/
abbrev Ct (F : FTy → Type) (s : Shape) (e : EltTy) : Type := (⟨s, e⟩ : BufTy).Contents (Elt F)

/-- The float zero as a rank-0 tensor. -/
def zero0 : Ct F S_ .f32 := constant S_ .f32 0x00000000#32

/-- Edge sources: row 0 of the edge list, then the node numbers 0 … 99999 (the self-loops). -/
def src (ei : Ct F S2x1600000 .i32) : Ct F S1700000 .i32 :=
  ((fun a b => concatenate S1700000 0 [⟨S1600000, a⟩, ⟨S100000, b⟩] concatenates_S1600000_S100000_S1700000_d0) : Ct F S1600000 .i32 → Ct F S100000 .i32 → Ct F S1700000 .i32)
    (shapeCast S1600000 (extractStridedSlice S1x1600000 ![0, 0] ei slices_S2x1600000_S1x1600000_0_0) shapeCasts_S1x1600000_S1600000)
    (iotaInDim S100000 32 0)

/-- Edge targets: row 1 of the edge list, then the node numbers. -/
def dst (ei : Ct F S2x1600000 .i32) : Ct F S1700000 .i32 :=
  ((fun a b => concatenate S1700000 0 [⟨S1600000, a⟩, ⟨S100000, b⟩] concatenates_S1600000_S100000_S1700000_d0) : Ct F S1600000 .i32 → Ct F S100000 .i32 → Ct F S1700000 .i32)
    (shapeCast S1600000 (extractStridedSlice S1x1600000 ![1, 0] ei slices_S2x1600000_S1x1600000_1_0) shapeCasts_S1x1600000_S1600000)
    (iotaInDim S100000 32 0)

/-- A row of node numbers as gather indices: a negative number counts from the end (100000 is added), and
    each index becomes a one-word row. -/
def gidx (row : Ct F S1700000 .i32) : Ct F S1700000x1 .i32 :=
  broadcastInDim S1700000x1 ![0] bcast_S1700000_S1700000x1_0
    (select (cmpi .slt row (broadcastInDim S1700000 ![] bcast_S_S1700000 (constantI S_ 32 0#32)))
      (addi row (broadcastInDim S1700000 ![] bcast_S_S1700000 (constantI S_ 32 100000#32))) row)

/-- A row of node numbers as scatter indices: each becomes a one-word row. -/
def sidx (row : Ct F S1700000 .i32) : Ct F S1700000x1 .i32 :=
  broadcastInDim S1700000x1 ![0] bcast_S1700000_S1700000x1_0 row

/-- deg(n): the number of edges whose target is n, as a sum of ones. -/
def deg (ei : Ct F S2x1600000 .i32) : Ct F S100000 .f32 :=
  Host.scatterAdd scatter_S100000_S1700000x1_S1700000_n_0_0_1
    (broadcastInDim S100000 ![] bcast_S_S100000 zero0)
    (sidx (dst ei))
    (broadcastInDim S1700000 ![] bcast_S_S1700000 (constant S_ .f32 0x3F800000#32))

/-- dis(n) = deg(n)^(-1/2) where deg(n) > 0, and 0 elsewhere. -/
def dis (ei : Ct F S2x1600000 .i32) : Ct F S100000 .f32 :=
  select (cmpf .ogt (deg ei) (broadcastInDim S100000 ![] bcast_S_S100000 zero0))
    (Host.rsqrt (deg ei))
    (broadcastInDim S100000 ![] bcast_S_S100000 zero0)

/-- norm(e) = dis(src e) · dis(dst e). -/
def nrm (ei : Ct F S2x1600000 .i32) : Ct F S1700000 .f32 :=
  mulf (Host.gather gather_S100000_S1700000x1_S1700000_n_0_n_n_0_1_1 (dis ei) (gidx (src ei)))
    (Host.gather gather_S100000_S1700000x1_S1700000_n_0_n_n_0_1_1 (dis ei) (gidx (dst ei)))

/-- One convolution layer on 128 features over given edge rows `s`, `d` and edge weights `w`:
    relu((sum over edges e with d(e) = n of y(s(e), ·) · w(e)) + b). -/
def convP128 (y : Ct F S100000x128 .f32) (s d : Ct F S1700000 .i32) (w : Ct F S1700000 .f32) (b : Ct F S128 .f32) : Ct F S100000x128 .f32 :=
  maximumf
    (addf
      (Host.scatterAdd scatter_S100000x128_S1700000x1_S1700000x128_1_0_0_1
        (broadcastInDim S100000x128 ![] bcast_S_S100000x128 zero0)
        (sidx d)
        (mulf (Host.gather gather_S100000x128_S1700000x1_S1700000x128_1_0_n_n_0_1_1128 y (gidx s))
          (broadcastInDim S1700000x128 ![0, 1] bcast_S1700000x1_S1700000x128_0_1
            (broadcastInDim S1700000x1 ![0] bcast_S1700000_S1700000x1_0 w))))
      (broadcastInDim S100000x128 ![0, 1] bcast_S1x128_S100000x128_0_1 (broadcastInDim S1x128 ![1] bcast_S128_S1x128_1 b)))
    (broadcastInDim S100000x128 ![] bcast_S_S100000x128 zero0)

/-- The same layer on 64 features. -/
def convP64 (y : Ct F S100000x64 .f32) (s d : Ct F S1700000 .i32) (w : Ct F S1700000 .f32) (b : Ct F S64 .f32) : Ct F S100000x64 .f32 :=
  maximumf
    (addf
      (Host.scatterAdd scatter_S100000x64_S1700000x1_S1700000x64_1_0_0_1
        (broadcastInDim S100000x64 ![] bcast_S_S100000x64 zero0)
        (sidx d)
        (mulf (Host.gather gather_S100000x64_S1700000x1_S1700000x64_1_0_n_n_0_1_164 y (gidx s))
          (broadcastInDim S1700000x64 ![0, 1] bcast_S1700000x1_S1700000x64_0_1
            (broadcastInDim S1700000x1 ![0] bcast_S1700000_S1700000x1_0 w))))
      (broadcastInDim S100000x64 ![0, 1] bcast_S1x64_S100000x64_0_1 (broadcastInDim S1x64 ![1] bcast_S64_S1x64_1 b)))
    (broadcastInDim S100000x64 ![] bcast_S_S100000x64 zero0)

/-- One layer on 128 features of the graph `ei`: the edge rows and weights are the graph's. -/
def conv128 (y : Ct F S100000x128 .f32) (ei : Ct F S2x1600000 .i32) (b : Ct F S128 .f32) : Ct F S100000x128 .f32 :=
  convP128 y (src ei) (dst ei) (nrm ei) b

/-- One layer on 64 features of the graph `ei`. -/
def conv64 (y : Ct F S100000x64 .f32) (ei : Ct F S2x1600000 .i32) (b : Ct F S64 .f32) : Ct F S100000x64 .f32 :=
  convP64 y (src ei) (dst ei) (nrm ei) b

/-- x · W1: the 100000 × 128 by 128 × 128 product. -/
def mm1 (x : Ct F S100000x128 .f32) (w : Ct F S128x128 .f32) : Ct F S100000x128 .f32 :=
  Host.dotGeneral dot_S100000x128_S128x128_S100000x128_1_0_0_1_n_n none x w

/-- h · W2: the 100000 × 128 by 128 × 64 product. -/
def mm2 (h : Ct F S100000x128 .f32) (w : Ct F S128x64 .f32) : Ct F S100000x64 .f32 :=
  Host.dotGeneral dot_S100000x128_S128x64_S100000x64_1_0_0_1_n_n none h w

/-- The per-graph sums of node rows: row g is the sum of the rows n with batch(n) = g. -/
def pool (h : Ct F S100000x64 .f32) (batch : Ct F S100000 .i32) : Ct F S512x64 .f32 :=
  Host.scatterAdd scatter_S512x64_S100000x1_S100000x64_1_0_0_1
    (broadcastInDim S512x64 ![] bcast_S_S512x64 zero0)
    (broadcastInDim S100000x1 ![0] bcast_S100000_S100000x1_0 batch)
    h

/-- The second result: both layers, then the per-graph sums. -/
def pooled (x : Ct F S100000x128 .f32) (ei : Ct F S2x1600000 .i32) (batch : Ct F S100000 .i32)
    (w1 : Ct F S128x128 .f32) (b1 : Ct F S128 .f32) (w2 : Ct F S128x64 .f32) (b2 : Ct F S64 .f32) : Ct F S512x64 .f32 :=
  pool (conv64 (mm2 (conv128 (mm1 x w1) ei b1) w2) ei b2) batch

/-- The column means of a 512 × 64 array: column sums over 512. -/
def colMean (p : Ct F S512x64 .f32) : Ct F S64 .f32 :=
  Host.divf (Host.reduceAdd p zero0 reducesTo_S512x64_S64_d0 h_S_)
    (broadcastInDim S64 ![] bcast_S_S64 (constant S_ .f32 0x44000000#32))

/-- The column variances: the column sums of the squared deviations from the column mean, over 512 − 0
    (the number of rows less zero degrees of freedom), kept where that divisor is positive. -/
def colVar (p : Ct F S512x64 .f32) : Ct F S64 .f32 :=
  select
    (broadcastInDim S64 ![] bcast_S_S64
      (cmpf (F := F) .ogt (subf (constant (F := F) S_ .f32 0x44000000#32) (sitofp .f32 (constantI S_ 32 0#32))) zero0))
    (Host.divf
      (Host.reduceAdd
        (mulf
          (subf p (broadcastInDim S512x64 ![0, 1] bcast_S1x64_S512x64_0_1
            (Host.divf (broadcastInDim S1x64 ![1] bcast_S64_S1x64_1 (Host.reduceAdd p zero0 reducesTo_S512x64_S64_d0 h_S_))
              (broadcastInDim S1x64 ![] bcast_S_S1x64 (constant S_ .f32 0x44000000#32)))))
          (subf p (broadcastInDim S512x64 ![0, 1] bcast_S1x64_S512x64_0_1
            (Host.divf (broadcastInDim S1x64 ![1] bcast_S64_S1x64_1 (Host.reduceAdd p zero0 reducesTo_S512x64_S64_d0 h_S_))
              (broadcastInDim S1x64 ![] bcast_S_S1x64 (constant S_ .f32 0x44000000#32))))))
        zero0 reducesTo_S512x64_S64_d0 h_S_)
      (broadcastInDim S64 ![] bcast_S_S64 (subf (constant S_ .f32 0x44000000#32) (sitofp .f32 (constantI S_ 32 0#32)))))
    (broadcastInDim S64 ![] bcast_S_S64 (constant S_ .f32 0x7FC00000#32))

/-- A 64-vector repeated down 512 rows. -/
def rows64 (v : Ct F S64 .f32) : Ct F S512x64 .f32 :=
  broadcastInDim S512x64 ![0, 1] bcast_S1x64_S512x64_0_1 (broadcastInDim S1x64 ![1] bcast_S64_S1x64_1 v)

/-- The normalised array: (p − mean) · (var + eps)^(-1/2) · gamma + beta, column by column. -/
def normed (p : Ct F S512x64 .f32) (gamma beta : Ct F S64 .f32) : Ct F S512x64 .f32 :=
  addf
    (mulf
      (mulf (subf p (rows64 (colMean p)))
        (rows64 (Host.rsqrt (addf (colVar p) (broadcastInDim S64 ![] bcast_S_S64 (constant S_ .f32 0x3727C5AC#32))))))
      (rows64 gamma))
    (rows64 beta)

/-- The first result from the per-graph sums: normalise, 64 → 24 with relu, 24 → 1. -/
def tail (p : Ct F S512x64 .f32) (gamma beta : Ct F S64 .f32) (wo1 : Ct F S64x24 .f32) (bo1 : Ct F S24 .f32)
    (wo2 : Ct F S24x1 .f32) (bo2 : Ct F S1 .f32) : Ct F S512x1 .f32 :=
  addf
    (Host.dotGeneral dot_S512x24_S24x1_S512x1_1_0_0_1_n_n none
      (maximumf
        (addf (Host.dotGeneral dot_S512x64_S64x24_S512x24_1_0_0_1_n_n none (normed p gamma beta) wo1)
          (broadcastInDim S512x24 ![0, 1] bcast_S1x24_S512x24_0_1 (broadcastInDim S1x24 ![1] bcast_S24_S1x24_1 bo1)))
        (broadcastInDim S512x24 ![] bcast_S_S512x24 zero0))
      wo2)
    (broadcastInDim S512x1 ![0, 1] bcast_S1x1_S512x1_0_1 (broadcastInDim S1x1 ![1] bcast_S1_S1x1_1 bo2))

/-- The first result. -/
def out (x : Ct F S100000x128 .f32) (ei : Ct F S2x1600000 .i32) (batch : Ct F S100000 .i32)
    (w1 : Ct F S128x128 .f32) (b1 : Ct F S128 .f32) (w2 : Ct F S128x64 .f32) (b2 : Ct F S64 .f32)
    (gamma beta : Ct F S64 .f32) (wo1 : Ct F S64x24 .f32) (bo1 : Ct F S24 .f32) (wo2 : Ct F S24x1 .f32) (bo2 : Ct F S1 .f32) :
    Ct F S512x1 .f32 :=
  tail (pooled x ei batch w1 b1 w2 b2) gamma beta wo1 bo1 wo2 bo2

end Cert.Spec

end
-- ==== Proof.KRun.lean ====
/-
  The idealized kernel program's run with its two results named.

  The program is three kernel regions among stretches of host operations. Its buffers' contents at each boundary
  are a fold from the launch memory: a stretch applies its operations, a region replaces its arrays by what its
  write-backs leave. Every weakly fair execution ends with every unscoped buffer at the last boundary's contents
  `W11`; here that is read at the two result buffers (the 512 × 1 output of the last region and the 512 × 64
  per-graph sums) as well as at the thirteen arguments, which no operation and no region writes.
-/
import proofs.«141279_j45071386804958_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program from a memory with zero counters terminates without a fault, with the
    two result buffers at the last boundary's contents and the argument arrays as launched. -/
theorem run : θ_run defs (onTc (τ := τ) (main (F := F))) ⟨m, fun _ => 0, ρ⟩ (fun r => ∀ c : Dev nD,
      r.2.mem ((c.tc : Thread nD τ).loc main_v69) = W11 m ρ c (Proc.devRef .tc main_v69)
      ∧ r.2.mem ((c.tc : Thread nD τ).loc main_v68) = W11 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v69 (by decide)),
       h c _ (mem_uc main_v68 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.KRun

end
-- ==== Proof.KStretch.lean ====
/-
  The host operations of the idealized kernel program between its regions, read as whole-array functions.

  Three stretches of host operations surround the three regions. The first builds, from the edge list, the
  1700000 edge sources and targets (the given edges followed by one self-loop per node) and the edge weights
  norm(e) = dis(src e) · dis(dst e); the second applies one convolution layer on 128 features to the first
  region's product; the third applies the layer on 64 features to the second region's product and sums the
  node rows per graph. Each stretch is a fold of single-assignment operations over the buffer contents, so the
  contents of a buffer after it is the composition of the operations that lead to that buffer, applied to the
  contents before it, and a buffer no operation of the stretch writes keeps its contents. The compositions are
  the specification's functions, term for term.
-/
import proofs.«141279_j45071386804958_1_alg».proof.Proof.Gen.KernelIdeal.Launch
import proofs.«141279_j45071386804958_1_alg».proof.Proof.Gen.ReferenceIdeal
import proofs.«141279_j45071386804958_1_alg».proof.Proof.Spec
import Idealize.ShloMosaic.Lib.StableHlo.Run
import Idealize.ShloMosaic.PureOps.Ideal

set_option maxRecDepth 16384

noncomputable section

namespace Cert.KernelIdeal.KStretch

open Idealize.ShloMosaic Idealize.ShloMosaic.TcCoe Idealize.SL.Sem
open Cert.KernelIdeal Cert.KernelIdeal.Gen
open Idealize.ShloMosaic.StableHlo

section Stretches
variable {F : FTy → Type} [FloatOps F] (W : Valuation τ sig (Elt F))

/-! ## The host operations before the first region: the edge rows and the edge weights -/

/-- The contents after the first stretch of host operations, from contents `W`. -/
abbrev afterA : Valuation τ sig (Elt F) := after hostOps0_2 (after hostOps0_1 (after hostOps0 W))

theorem A_v3 : afterA W (Proc.devRef .tc main_v3) = Cert.Spec.src (W (Proc.devRef .tc main_arg1)) := by
  dsimp only [afterA, hostOps0, hostOps0_1, hostOps0_2]; after_results_simp; rfl
theorem A_v6 : afterA W (Proc.devRef .tc main_v6) = Cert.Spec.dst (W (Proc.devRef .tc main_arg1)) := by
  dsimp only [afterA, hostOps0, hostOps0_1, hostOps0_2]; after_results_simp; rfl
theorem A_v29 : afterA W (Proc.devRef .tc main_v29) = Cert.Spec.nrm (W (Proc.devRef .tc main_arg1)) := by
  dsimp only [afterA, hostOps0, hostOps0_1, hostOps0_2]; after_results_simp; rfl
theorem A_keep_main_arg0 : afterA W (Proc.devRef .tc main_arg0) = W (Proc.devRef .tc main_arg0) := by
  dsimp only [afterA, hostOps0, hostOps0_1, hostOps0_2]; after_results_simp
theorem A_keep_main_arg2 : afterA W (Proc.devRef .tc main_arg2) = W (Proc.devRef .tc main_arg2) := by
  dsimp only [afterA, hostOps0, hostOps0_1, hostOps0_2]; after_results_simp
theorem A_keep_main_arg3 : afterA W (Proc.devRef .tc main_arg3) = W (Proc.devRef .tc main_arg3) := by
  dsimp only [afterA, hostOps0, hostOps0_1, hostOps0_2]; after_results_simp
theorem A_keep_main_arg4 : afterA W (Proc.devRef .tc main_arg4) = W (Proc.devRef .tc main_arg4) := by
  dsimp only [afterA, hostOps0, hostOps0_1, hostOps0_2]; after_results_simp
theorem A_keep_main_arg5 : afterA W (Proc.devRef .tc main_arg5) = W (Proc.devRef .tc main_arg5) := by
  dsimp only [afterA, hostOps0, hostOps0_1, hostOps0_2]; after_results_simp
theorem A_keep_main_arg6 : afterA W (Proc.devRef .tc main_arg6) = W (Proc.devRef .tc main_arg6) := by
  dsimp only [afterA, hostOps0, hostOps0_1, hostOps0_2]; after_results_simp
theorem A_keep_main_arg7 : afterA W (Proc.devRef .tc main_arg7) = W (Proc.devRef .tc main_arg7) := by
  dsimp only [afterA, hostOps0, hostOps0_1, hostOps0_2]; after_results_simp
theorem A_keep_main_arg8 : afterA W (Proc.devRef .tc main_arg8) = W (Proc.devRef .tc main_arg8) := by
  dsimp only [afterA, hostOps0, hostOps0_1, hostOps0_2]; after_results_simp
theorem A_keep_main_arg9 : afterA W (Proc.devRef .tc main_arg9) = W (Proc.devRef .tc main_arg9) := by
  dsimp only [afterA, hostOps0, hostOps0_1, hostOps0_2]; after_results_simp
theorem A_keep_main_arg10 : afterA W (Proc.devRef .tc main_arg10) = W (Proc.devRef .tc main_arg10) := by
  dsimp only [afterA, hostOps0, hostOps0_1, hostOps0_2]; after_results_simp
theorem A_keep_main_arg11 : afterA W (Proc.devRef .tc main_arg11) = W (Proc.devRef .tc main_arg11) := by
  dsimp only [afterA, hostOps0, hostOps0_1, hostOps0_2]; after_results_simp
theorem A_keep_main_arg12 : afterA W (Proc.devRef .tc main_arg12) = W (Proc.devRef .tc main_arg12) := by
  dsimp only [afterA, hostOps0, hostOps0_1, hostOps0_2]; after_results_simp

/-! ## The host operations between the first and second regions: one layer on 128 features -/

abbrev afterB : Valuation τ sig (Elt F) := after hostOps1_1 (after hostOps1 W)

theorem B_v47 : afterB W (Proc.devRef .tc main_v47)
    = Cert.Spec.convP128 (W (Proc.devRef .tc main_v30)) (W (Proc.devRef .tc main_v3)) (W (Proc.devRef .tc main_v6)) (W (Proc.devRef .tc main_v29)) (W (Proc.devRef .tc main_arg4)) := by
  dsimp only [afterB, hostOps1, hostOps1_1]; after_results_simp; rfl
theorem B_keep_main_v3 : afterB W (Proc.devRef .tc main_v3) = W (Proc.devRef .tc main_v3) := by
  dsimp only [afterB, hostOps1, hostOps1_1]; after_results_simp
theorem B_keep_main_v6 : afterB W (Proc.devRef .tc main_v6) = W (Proc.devRef .tc main_v6) := by
  dsimp only [afterB, hostOps1, hostOps1_1]; after_results_simp
theorem B_keep_main_v29 : afterB W (Proc.devRef .tc main_v29) = W (Proc.devRef .tc main_v29) := by
  dsimp only [afterB, hostOps1, hostOps1_1]; after_results_simp
theorem B_keep_main_arg2 : afterB W (Proc.devRef .tc main_arg2) = W (Proc.devRef .tc main_arg2) := by
  dsimp only [afterB, hostOps1, hostOps1_1]; after_results_simp
theorem B_keep_main_arg5 : afterB W (Proc.devRef .tc main_arg5) = W (Proc.devRef .tc main_arg5) := by
  dsimp only [afterB, hostOps1, hostOps1_1]; after_results_simp
theorem B_keep_main_arg6 : afterB W (Proc.devRef .tc main_arg6) = W (Proc.devRef .tc main_arg6) := by
  dsimp only [afterB, hostOps1, hostOps1_1]; after_results_simp
theorem B_keep_main_arg7 : afterB W (Proc.devRef .tc main_arg7) = W (Proc.devRef .tc main_arg7) := by
  dsimp only [afterB, hostOps1, hostOps1_1]; after_results_simp
theorem B_keep_main_arg8 : afterB W (Proc.devRef .tc main_arg8) = W (Proc.devRef .tc main_arg8) := by
  dsimp only [afterB, hostOps1, hostOps1_1]; after_results_simp
theorem B_keep_main_arg9 : afterB W (Proc.devRef .tc main_arg9) = W (Proc.devRef .tc main_arg9) := by
  dsimp only [afterB, hostOps1, hostOps1_1]; after_results_simp
theorem B_keep_main_arg10 : afterB W (Proc.devRef .tc main_arg10) = W (Proc.devRef .tc main_arg10) := by
  dsimp only [afterB, hostOps1, hostOps1_1]; after_results_simp
theorem B_keep_main_arg11 : afterB W (Proc.devRef .tc main_arg11) = W (Proc.devRef .tc main_arg11) := by
  dsimp only [afterB, hostOps1, hostOps1_1]; after_results_simp
theorem B_keep_main_arg12 : afterB W (Proc.devRef .tc main_arg12) = W (Proc.devRef .tc main_arg12) := by
  dsimp only [afterB, hostOps1, hostOps1_1]; after_results_simp

/-! ## The host operations between the second and third regions: one layer on 64 features, then the per-graph sums -/

abbrev afterC : Valuation τ sig (Elt F) := after hostOps2_2 (after hostOps2_1 (after hostOps2 W))

theorem C_v68 : afterC W (Proc.devRef .tc main_v68)
    = Cert.Spec.pool (Cert.Spec.convP64 (W (Proc.devRef .tc main_v48)) (W (Proc.devRef .tc main_v3)) (W (Proc.devRef .tc main_v6)) (W (Proc.devRef .tc main_v29)) (W (Proc.devRef .tc main_arg6))) (W (Proc.devRef .tc main_arg2)) := by
  dsimp only [afterC, hostOps2, hostOps2_1, hostOps2_2]; after_results_simp; rfl
theorem C_keep_main_arg7 : afterC W (Proc.devRef .tc main_arg7) = W (Proc.devRef .tc main_arg7) := by
  dsimp only [afterC, hostOps2, hostOps2_1, hostOps2_2]; after_results_simp
theorem C_keep_main_arg8 : afterC W (Proc.devRef .tc main_arg8) = W (Proc.devRef .tc main_arg8) := by
  dsimp only [afterC, hostOps2, hostOps2_1, hostOps2_2]; after_results_simp
theorem C_keep_main_arg9 : afterC W (Proc.devRef .tc main_arg9) = W (Proc.devRef .tc main_arg9) := by
  dsimp only [afterC, hostOps2, hostOps2_1, hostOps2_2]; after_results_simp
theorem C_keep_main_arg10 : afterC W (Proc.devRef .tc main_arg10) = W (Proc.devRef .tc main_arg10) := by
  dsimp only [afterC, hostOps2, hostOps2_1, hostOps2_2]; after_results_simp
theorem C_keep_main_arg11 : afterC W (Proc.devRef .tc main_arg11) = W (Proc.devRef .tc main_arg11) := by
  dsimp only [afterC, hostOps2, hostOps2_1, hostOps2_2]; after_results_simp
theorem C_keep_main_arg12 : afterC W (Proc.devRef .tc main_arg12) = W (Proc.devRef .tc main_arg12) := by
  dsimp only [afterC, hostOps2, hostOps2_1, hostOps2_2]; after_results_simp

end Stretches

end Cert.KernelIdeal.KStretch
end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.MatVal.lean ====
/-
  The two tiled matrix-product regions of the kernel, read as whole-array products.

  Each region walks a grid of 20 points. Point t takes rows 5000·t … 5000·t + 4999 of the left array and the whole
  right array, forms their product on the matrix unit into a zero accumulator (rounding both operands to bf16 first,
  which is the identity on the ideal values), and writes the result as block t (rows 5000·t … 5000·t + 4999) of the
  output array. Entry (a, b) of a block's product is the sum over k < 128 of (left block)(a, k) · (right)(k, b);
  row a of block t of the left array is row 5000·t + a of that array; so block t of the output is the block-t
  restriction of the whole-array product, whose entry (r, j) is the sum over k < 128 of x(r, k) · w(k, j). The 20
  blocks cover all 100000 rows (row r lies in block r / 5000), hence the output array ends holding the whole product.
-/
import proofs.«141279_j45071386804958_1_alg».proof.Proof.Gen.KernelIdeal.Frame
import proofs.«141279_j45071386804958_1_alg».proof.Proof.Spec
import proofs.«141279_j45071386804958_1_alg».proof.Proof.LibPlainProduct
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.MatVal

open Cert.KernelIdeal Cert.KernelIdeal.Facts₀ Cert.KernelIdeal.Facts Cert.LibPlainProduct

variable [Cert.ReferenceIdeal.Facts]

/-! ## Entry by entry: both sides are the sum over the contracted coordinate -/

/-- Region 0's block product at entry (a, b): the sum over k < 128 of (left block)(a, k) · (right)(k, b). The rounding
    of the operands to bf16 is the identity on the ideal values, and the accumulator is the zero splat. -/
theorem pay0_apply (v0 : Vec Ideal S5000x128 .f32) (v2 : Vec Ideal S128x128 .f32) (a : Fin 5000) (b : Fin 128) :
    Gen.k0_pay1 (F := Ideal) v0 v2 (ix2 a b) = ∑ k : Fin 128, v0 (ix2 a k) * v2 (ix2 k b) := by
  unfold Gen.k0_pay1
  exact matmul_zero_plain_apply dot_S5000x128_S128x128_S5000x128_1_0_0_1_n_n_wf none
    (truncf .bf16 v0 bitsLt_bf16_f32) (truncf .bf16 v2 bitsLt_bf16_f32) a b

/-- Region 1's block product at entry (a, b): the same sum, over a 128 × 64 right operand. The reshaping of the left
    block onto its own shape is the identity. -/
theorem pay1_apply (v0 : Vec Ideal S5000x128 .f32) (v3 : Vec Ideal S128x64 .f32) (a : Fin 5000) (b : Fin 64) :
    Gen.k1_pay1 (F := Ideal) v0 v3 (ix2 a b) = ∑ k : Fin 128, v0 (ix2 a k) * v3 (ix2 k b) := by
  unfold Gen.k1_pay1
  rw [shapeCast_self]
  exact matmul_zero_plain_apply dot_S5000x128_S128x64_S5000x64_1_0_0_1_n_n_wf none
    (truncf .bf16 v0 bitsLt_bf16_f32) (truncf .bf16 v3 bitsLt_bf16_f32) a b

/-- The whole-array product x · W1 at entry (r, j): the sum over k < 128 of x(r, k) · w(k, j). -/
theorem mm1_apply (x : Cert.Spec.Ct Ideal Cert.ReferenceIdeal.S100000x128 .f32) (w : Cert.Spec.Ct Ideal Cert.ReferenceIdeal.S128x128 .f32)
    (r : Fin 100000) (j : Fin 128) :
    Cert.Spec.mm1 (F := Ideal) x w (ix2 r j) = ∑ k : Fin 128, x (ix2 r k) * w (ix2 k j) := by
  unfold Cert.Spec.mm1
  exact dotGeneral_plain_apply Cert.ReferenceIdeal.Facts₀.dot_S100000x128_S128x128_S100000x128_1_0_0_1_n_n_wf none x w r j

/-- The whole-array product h · W2 at entry (r, j): the sum over k < 128 of h(r, k) · w(k, j). -/
theorem mm2_apply (x : Cert.Spec.Ct Ideal Cert.ReferenceIdeal.S100000x128 .f32) (w : Cert.Spec.Ct Ideal Cert.ReferenceIdeal.S128x64 .f32)
    (r : Fin 100000) (j : Fin 64) :
    Cert.Spec.mm2 (F := Ideal) x w (ix2 r j) = ∑ k : Fin 128, x (ix2 r k) * w (ix2 k j) := by
  unfold Cert.Spec.mm2
  exact dotGeneral_plain_apply Cert.ReferenceIdeal.Facts₀.dot_S100000x128_S128x64_S100000x64_1_0_0_1_n_n_wf none x w r j

/-! ## Region 0: block t of the output is the block-t restriction of the whole product -/

theorem hz : (![0, 0] : Fin 2 → Nat) = fun _ => 0 := funext fun a => by fin_cases a <;> rfl

/-- The printed index maps, decided over the 20 grid points: at point t the left window and the output window sit at
    block (t, 0) and the right window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block's product is the whole product's entry 5000·n rows further down: if the left block is rows
    5000·n … 5000·n + 4999 of x and the right block is w, then entry (a, b) of the block product is entry
    (5000·n + a, b) of x · w, both being the sum over k < 128 of x(5000·n + a, k) · w(k, b). -/
theorem block0_entry (X : Cert.Spec.Ct Ideal Cert.ReferenceIdeal.S100000x128 .f32) (Wt : Cert.Spec.Ct Ideal Cert.ReferenceIdeal.S128x128 .f32)
    (x0 : Vec Ideal S5000x128 .f32) (x1 : Vec Ideal S128x128 .f32) (n : Nat) (hn : n < 20)
    (h0 : ∀ (a : Fin 5000) (k : Fin 128), x0 (ix2 a k) = X (ix2 (⟨5000 * n + a.val, by omega⟩ : Fin 100000) k))
    (h1 : ∀ (k : Fin 128) (b : Fin 128), x1 (ix2 k b) = Wt (ix2 k b))
    (a : Fin 5000) (b : Fin 128) (i : Cert.ReferenceIdeal.S100000x128.Idx) (hi0 : (i 0).val = 5000 * n + a.val) (hi1 : (i 1).val = b.val) :
    Gen.k0_pay1 (F := Ideal) x0 x1 (ix2 a b) = Cert.Spec.mm1 (F := Ideal) X Wt i := by
  have hi : i = ix2 (⟨5000 * n + a.val, by omega⟩ : Fin 100000) b := by
    funext ax; apply Fin.ext
    match ax with
    | ⟨0, _⟩ => exact hi0
    | ⟨1, _⟩ => exact hi1
  rw [hi, pay0_apply, mm1_apply]
  exact Finset.sum_congr rfl fun k _ => by rw [h0, h1]

variable (V : (c : Dev nD) → (b : Ref sig .tc) → Buf (Elt Ideal) ((c : Thread nD τ).loc b))

/-- WHAT POINT t WRITES BACK is block t of the whole product of the two argument arrays as the region finds them. -/
theorem flushed0_eq (c : Dev nD) (t : Fin cfg0.N) :
    (Gen.dat0 (F := Ideal) V c).flushed 2 t
      = ((cfg0.win 2).blk t).view.read (Elt Ideal) (Cert.Spec.mm1 (F := Ideal) (V c (Pipeline.arrRef spec0 0)) (V c (Pipeline.arrRef spec0 1))) := by
  show (cfg0.win 2).cut (grid0.coords t) ((Gen.dat0 (F := Ideal) V c).after 2 t) = _
  rw [Gen.after0_2]
  unfold Gen.out0_2
  rw [View.canon_unit_zero hz]
  simp only [View.ld_unit_zero (S := S5000x128) hz, View.ld_unit_zero (S := S128x128) hz]
  obtain ⟨e0, e1, e2, e3, e4, e5⟩ := idx_facts0 t
  have hN : t.val < 20 := by have h1 := t.isLt; have h2 : cfg0.N = 20 := Gen.N_0; omega
  refine funext fun (j : S5000x128.Idx) => ?_
  obtain ⟨a, b, rfl⟩ : ∃ (a : Fin 5000) (b : Fin 128), j = ix2 a b := ⟨j 0, j 1, eq_ix2 j⟩
  show Gen.k0_pay1 (F := Ideal) (Gen.iblk0 V c 0 t) (Gen.iblk0 V c 1 t) (ix2 a b)
    = Cert.Spec.mm1 (F := Ideal) (V c (Pipeline.arrRef spec0 0)) (V c (Pipeline.arrRef spec0 1)) (((cfg0.win 2).blk t).view.emb (ix2 a b))
  refine block0_entry (V c (Pipeline.arrRef spec0 0)) (V c (Pipeline.arrRef spec0 1)) (Gen.iblk0 V c 0 t) (Gen.iblk0 V c 1 t) t.val hN
    (fun a k => ?_) (fun k b => ?_) a b _ ?_ ?_
  · unfold Gen.iblk0
    rw [View.read_apply]
    refine congrArg (V c (Pipeline.arrRef spec0 0)) (funext fun ax => Fin.ext ?_)
    match ax with
    | ⟨0, _⟩ => show win0_0.index t (0 : Fin 2) * 5000 + 1 * a.val = 5000 * t.val + a.val; omega
    | ⟨1, _⟩ => show win0_0.index t (1 : Fin 2) * 128 + 1 * k.val = k.val; omega
  · unfold Gen.iblk0
    rw [View.read_apply]
    refine congrArg (V c (Pipeline.arrRef spec0 1)) (funext fun ax => Fin.ext ?_)
    match ax with
    | ⟨0, _⟩ => show win0_1.index t (0 : Fin 2) * 128 + 1 * k.val = k.val; omega
    | ⟨1, _⟩ => show win0_1.index t (1 : Fin 2) * 128 + 1 * b.val = b.val; omega
  · show win0_2.index t (0 : Fin 2) * 5000 + 1 * a.val = 5000 * t.val + a.val; omega
  · show win0_2.index t (1 : Fin 2) * 128 + 1 * b.val = b.val; omega

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in some point's block: row r is in the block of point r / 5000. -/
theorem cover0 (i : S100000x128.Idx) : ∃ t : Fin cfg0.N, (cfg0.win 2).flush t = true ∧ i ∈ ((cfg0.win 2).blk t).view.set := by
    have hi0 : (i 0).val < 100000 := (i 0).isLt
    have hi1 : (i 1).val < 128 := (i 1).isLt
    have hN : cfg0.N = 20 := Gen.N_0
    let t : Fin cfg0.N := ⟨(i 0).val / 5000, by rw [hN]; omega⟩
    obtain ⟨e0, e1, e2, e3, e4, e5⟩ := idx_facts0 t
    have ht : t.val = (i 0).val / 5000 := rfl
    refine ⟨t, Gen.flush0_2 t, ?_⟩
    rw [mem_blk0]
    intro a
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 128 ≤ (i 1).val ∧ (i 1).val < win0_2.index t (1 : Fin 2) * 128 + 128; omega

/-- THE OUTPUT ARRAY after region 0 is the whole product: every point writes its block of the product, and the blocks
    cover the array. -/
theorem region0 (c : Dev nD) :
    (Gen.dat0 (F := Ideal) V c).arrAt 2 cfg0.N = Cert.Spec.mm1 (F := Ideal) (V c (Pipeline.arrRef spec0 0)) (V c (Pipeline.arrRef spec0 1)) :=
  (Gen.dat0 (F := Ideal) V c).arrAt_eq_of_cover 2 _ (fun t _ => flushed0_eq V c t) cover0

/-! ## Region 1: the same walk over a 128 × 64 right operand -/

/-- The printed index maps of region 1, decided over its 20 grid points: the left window and the output window sit at
    block (t, 0), the right window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of a block's product is the whole product's entry 5000·n rows further down (64 columns): if the left
    block is rows 5000·n … 5000·n + 4999 of h and the right block is w, then entry (a, b) of the block product is entry
    (5000·n + a, b) of h · w, both being the sum over k < 128 of h(5000·n + a, k) · w(k, b). -/
theorem block1_entry (X : Cert.Spec.Ct Ideal Cert.ReferenceIdeal.S100000x128 .f32) (Wt : Cert.Spec.Ct Ideal Cert.ReferenceIdeal.S128x64 .f32)
    (x0 : Vec Ideal S5000x128 .f32) (x1 : Vec Ideal S128x64 .f32) (n : Nat) (hn : n < 20)
    (h0 : ∀ (a : Fin 5000) (k : Fin 128), x0 (ix2 a k) = X (ix2 (⟨5000 * n + a.val, by omega⟩ : Fin 100000) k))
    (h1 : ∀ (k : Fin 128) (b : Fin 64), x1 (ix2 k b) = Wt (ix2 k b))
    (a : Fin 5000) (b : Fin 64) (i : Cert.ReferenceIdeal.S100000x64.Idx) (hi0 : (i 0).val = 5000 * n + a.val) (hi1 : (i 1).val = b.val) :
    Gen.k1_pay1 (F := Ideal) x0 x1 (ix2 a b) = Cert.Spec.mm2 (F := Ideal) X Wt i := by
  have hi : i = ix2 (⟨5000 * n + a.val, by omega⟩ : Fin 100000) b := by
    funext ax; apply Fin.ext
    match ax with
    | ⟨0, _⟩ => exact hi0
    | ⟨1, _⟩ => exact hi1
  rw [hi, pay1_apply, mm2_apply]
  exact Finset.sum_congr rfl fun k _ => by rw [h0, h1]

/-- WHAT POINT t OF REGION 1 WRITES BACK is block t of the whole product of its two argument arrays as the region
    finds them. -/
theorem flushed1_eq (c : Dev nD) (t : Fin cfg1.N) :
    (Gen.dat1 (F := Ideal) V c).flushed 2 t
      = ((cfg1.win 2).blk t).view.read (Elt Ideal) (Cert.Spec.mm2 (F := Ideal) (V c (Pipeline.arrRef spec1 0)) (V c (Pipeline.arrRef spec1 1))) := by
  show (cfg1.win 2).cut (grid1.coords t) ((Gen.dat1 (F := Ideal) V c).after 2 t) = _
  rw [Gen.after1_2]
  unfold Gen.out1_2
  rw [View.canon_unit_zero hz]
  simp only [View.ld_unit_zero (S := S5000x128) hz, View.ld_unit_zero (S := S128x64) hz]
  obtain ⟨e0, e1, e2, e3, e4, e5⟩ := idx_facts1 t
  have hN : t.val < 20 := by have h1 := t.isLt; have h2 : cfg1.N = 20 := Gen.N_1; omega
  refine funext fun (j : S5000x64.Idx) => ?_
  obtain ⟨a, b, rfl⟩ : ∃ (a : Fin 5000) (b : Fin 64), j = ix2 a b := ⟨j 0, j 1, eq_ix2 j⟩
  show Gen.k1_pay1 (F := Ideal) (Gen.iblk1 V c 0 t) (Gen.iblk1 V c 1 t) (ix2 a b)
    = Cert.Spec.mm2 (F := Ideal) (V c (Pipeline.arrRef spec1 0)) (V c (Pipeline.arrRef spec1 1)) (((cfg1.win 2).blk t).view.emb (ix2 a b))
  refine block1_entry (V c (Pipeline.arrRef spec1 0)) (V c (Pipeline.arrRef spec1 1)) (Gen.iblk1 V c 0 t) (Gen.iblk1 V c 1 t) t.val hN
    (fun a k => ?_) (fun k b => ?_) a b _ ?_ ?_
  · unfold Gen.iblk1
    rw [View.read_apply]
    refine congrArg (V c (Pipeline.arrRef spec1 0)) (funext fun ax => Fin.ext ?_)
    match ax with
    | ⟨0, _⟩ => show win1_0.index t (0 : Fin 2) * 5000 + 1 * a.val = 5000 * t.val + a.val; omega
    | ⟨1, _⟩ => show win1_0.index t (1 : Fin 2) * 128 + 1 * k.val = k.val; omega
  · unfold Gen.iblk1
    rw [View.read_apply]
    refine congrArg (V c (Pipeline.arrRef spec1 1)) (funext fun ax => Fin.ext ?_)
    match ax with
    | ⟨0, _⟩ => show win1_1.index t (0 : Fin 2) * 128 + 1 * k.val = k.val; omega
    | ⟨1, _⟩ => show win1_1.index t (1 : Fin 2) * 64 + 1 * b.val = b.val; omega
  · show win1_2.index t (0 : Fin 2) * 5000 + 1 * a.val = 5000 * t.val + a.val; omega
  · show win1_2.index t (1 : Fin 2) * 64 + 1 * b.val = b.val; omega

/-- An index of region 1's output array is in point t's block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Every index of region 1's output array is in some point's block: row r is in the block of point r / 5000. -/
theorem cover1 (i : S100000x64.Idx) : ∃ t : Fin cfg1.N, (cfg1.win 2).flush t = true ∧ i ∈ ((cfg1.win 2).blk t).view.set := by
    have hi0 : (i 0).val < 100000 := (i 0).isLt
    have hi1 : (i 1).val < 64 := (i 1).isLt
    have hN : cfg1.N = 20 := Gen.N_1
    let t : Fin cfg1.N := ⟨(i 0).val / 5000, by rw [hN]; omega⟩
    obtain ⟨e0, e1, e2, e3, e4, e5⟩ := idx_facts1 t
    have ht : t.val = (i 0).val / 5000 := rfl
    refine ⟨t, Gen.flush1_2 t, ?_⟩
    rw [mem_blk1]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 64 ≤ (i 1).val ∧ (i 1).val < win1_2.index t (1 : Fin 2) * 64 + 64; omega

/-- THE OUTPUT ARRAY after region 1 is the whole product: every point writes its block of the product, and the blocks
    cover the array. -/
theorem region1 (c : Dev nD) :
    (Gen.dat1 (F := Ideal) V c).arrAt 2 cfg1.N = Cert.Spec.mm2 (F := Ideal) (V c (Pipeline.arrRef spec1 0)) (V c (Pipeline.arrRef spec1 1)) :=
  (Gen.dat1 (F := Ideal) V c).arrAt_eq_of_cover 2 _ (fun t _ => flushed1_eq V c t) cover1

end Cert.KernelIdeal.MatVal

end
-- ==== Proof.TailMath.lean ====
/-
  The tail of the computation, entry by entry.

  From a 512 × 64 array p (one row per graph), scale and shift vectors gamma and beta (64), a 64 × 24 matrix with a
  bias (24) and a 24 × 1 matrix with a bias (1):

      mean(f)  = (sum over g < 512 of p(g, f)) / 512
      var(f)   = (sum over g < 512 of (p(g, f) − mean(f))²) / 512
      xn(g, f) = ((p(g, f) − mean(f)) · (var(f) + eps)^(−1/2)) · gamma(f) + beta(f)
      hid(g, a) = max( (sum over f < 64 of xn(g, f) · W1(f, a)) + b1(a), 0 )
      tailAt(g) = (sum over a < 24 of hid(g, a) · W2(a, 0)) + b2(0)

  on the extended reals, the operations in exactly this order; 512, eps and 0 are kept as the float words the programs
  spell. Also here: what the word of 512 denotes, and the two facts a divisor "512 − 0, kept where it is positive"
  needs: the integer zero converts to the real zero, and 512 − 0 is above the zero word's value.
-/
import Idealize.ShloMosaic.PureOps.Ideal.Laws
import Idealize.ShloMosaic.Lib.ValueIdx

noncomputable section

open scoped BigOperators

namespace Cert.TailMath

open Idealize.ShloMosaic Idealize.ShloMosaic.ValueIdx

/-- An m × n array of extended reals, by index. -/
abbrev Mat (m n : ℕ) : Type := (⟨2, ![m, n]⟩ : Shape).Idx → EReal
/-- A vector of n extended reals, by index. -/
abbrev Vct (n : ℕ) : Type := (⟨1, ![n]⟩ : Shape).Idx → EReal

/-- The float word of 512.0. -/
abbrev c512 : EReal := Ideal.ofBits .f32 0x44000000#32
/-- The float word of eps (about 1e-5). -/
abbrev ceps : EReal := Ideal.ofBits .f32 0x3727C5AC#32
/-- The float word of +0.0. -/
abbrev czero : EReal := Ideal.ofBits .f32 0x00000000#32

/-- The mean of column f over the 512 rows. -/
def mean (p : Mat 512 64) (f : Fin 64) : EReal := Ideal.div (∑ g : Fin 512, p (ix2 g f)) c512

/-- The centred variance of column f over the 512 rows. -/
def var (p : Mat 512 64) (f : Fin 64) : EReal :=
  Ideal.div (∑ g : Fin 512, (p (ix2 g f) - mean p f) * (p (ix2 g f) - mean p f)) c512

/-- The normalised entry (g, f). -/
def xn (p : Mat 512 64) (γ β : Vct 64) (g : Fin 512) (f : Fin 64) : EReal :=
  (p (ix2 g f) - mean p f) * Ideal.rsqrt (var p f + ceps) * γ (ix1 f) + β (ix1 f)

/-- The hidden layer's entry (g, a): the 64 → 24 linear layer with relu. -/
def hid (p : Mat 512 64) (γ β : Vct 64) (w1 : Mat 64 24) (b1 : Vct 24) (g : Fin 512) (a : Fin 24) : EReal :=
  max ((∑ f : Fin 64, xn p γ β g f * w1 (ix2 f a)) + b1 (ix1 a)) czero

/-- The result's entry (g, 0): the 24 → 1 linear layer. -/
def tailAt (p : Mat 512 64) (γ β : Vct 64) (w1 : Mat 64 24) (b1 : Vct 24) (w2 : Mat 24 1) (b2 : Vct 1) (g : Fin 512) : EReal :=
  (∑ a : Fin 24, hid p γ β w1 b1 g a * w2 (ix2 a (0 : Fin 1))) + b2 (ix1 (0 : Fin 1))

/-- The word 0x44000000 denotes the real 512. -/
theorem c512_eq : Ideal.ofBits .f32 0x44000000#32 = ((512 : ℝ) : EReal) := by
  simp [Ideal.ofBits, Ideal.ieee, -EReal.coe_mul]; norm_num

/-- The 32-bit integer zero, converted to a float, is the real zero. -/
theorem sitofp_zero : FloatOps.sitofp (F := Ideal) .f32 (0#32 : BitVec 32) = 0 := by
  show (((0#32 : BitVec 32).toInt : ℝ) : EReal) = 0
  simp

/-- 512 less the converted integer zero is 512. -/
theorem c512_sub_zero : c512 - FloatOps.sitofp (F := Ideal) .f32 (0#32 : BitVec 32) = c512 := by
  rw [sitofp_zero, sub_zero]

/-- 512 less the converted integer zero is above the value of the zero word: the comparison answers 1. -/
theorem c512_pos_cmp :
    FloatOps.cmpf (F := Ideal) (φ := .f32) .ogt (c512 - FloatOps.sitofp (F := Ideal) .f32 (0#32 : BitVec 32)) czero = 1#1 := by
  rw [c512_sub_zero]
  have h : czero < c512 := by
    show Ideal.ofBits .f32 0x00000000#32 < Ideal.ofBits .f32 0x44000000#32
    rw [Ideal.ofBits_zero_f32, c512_eq]
    exact_mod_cast (by norm_num : (0 : ℝ) < 512)
  show BitVec.ofBool (decide (czero < c512)) = 1#1
  rw [decide_eq_true h]
  rfl

end Cert.TailMath

end
-- ==== Proof.LibColumnSum.lean ====
/-
  The sum of a matrix down its rows, read at a column, at the ideal values.

  For an m × n matrix summed over axis 0 into a vector of n entries, the reduced index f with the row coordinate g
  inserted is (g, f) (`lift_col`). Hence a lane reduction `vector.multi_reduction <add>` over axis 0 reads, at f, as the
  sum over g < m of the entries (g, f) (`laneColSum_apply`), and the host's `reduce` with `add` over axis 0 reads as the
  initial value plus that same sum (`hostColSum_apply`). Any extents m, n.
-/
import Idealize.ShloMosaic.PureOps.Ideal.Laws
import Idealize.ShloMosaic.Lib.ValueIdx
import Idealize.ShloMosaic.Lib.IdealHost

open scoped BigOperators

namespace Cert.LibColumnSum

open Idealize.ShloMosaic Idealize.ShloMosaic.ValueIdx

/-- The source index of a matrix over column f with row g inserted is (g, f). -/
theorem lift_col {m n : ℕ} (h : (⟨2, ![m, n]⟩ : Shape).Reduces [0] (⟨1, ![n]⟩ : Shape)) (f : Fin n) (g : Fin m) :
    h.lift (ix1 f) g = ix2 g f := by
  funext c
  apply Fin.ext
  match c with
  | ⟨0, _⟩ => rfl
  | ⟨1, _⟩ => rfl

/-- A lane sum of a matrix over its rows, read at column f: the sum of the column's entries. -/
theorem laneColSum_apply {m n : ℕ} {φ : FTy} (x : FVec Ideal (⟨2, ![m, n]⟩ : Shape) φ) (acc : BitVec φ.bits)
    (h : (⟨2, ![m, n]⟩ : Shape).Reduces [0] (⟨1, ![n]⟩ : Shape)) (hφ : FKind.Formats φ)
    (hacc : acc = FKind.add.neutral φ hφ) (f : Fin n) :
    multiReduction .add [0] (⟨1, ![n]⟩ : Shape) x acc h hφ hacc (ix1 f) = ∑ g : Fin m, x (ix2 g f) := by
  refine (Ideal.multiReduction_add_single x acc h hφ hacc (ix1 f)).trans ?_
  exact Finset.sum_congr rfl fun g _ => congrArg x (lift_col h f g)

/-- The host's sum of a matrix over its rows from an initial value, read at column f: the initial value plus the sum
    of the column's entries. -/
theorem hostColSum_apply {m n : ℕ} {u : Shape} (x : FVec Ideal (⟨2, ![m, n]⟩ : Shape) .f32) (init : u.Idx → Ideal .f32)
    (h' : (⟨2, ![m, n]⟩ : Shape).ReducesTo [0] (⟨1, ![n]⟩ : Shape)) (h : (⟨2, ![m, n]⟩ : Shape).Reduces [0] (⟨1, ![n]⟩ : Shape))
    (hu : 0 < u.numel) (f : Fin n) :
    Host.reduceAdd x init h' hu (ix1 f) = init (Shape.Idx.first hu) + ∑ g : Fin m, x (ix2 g f) := by
  refine (hostReduceAdd_apply x init h' hu (ix1 f)).trans ?_
  refine (Ideal.hostReduceAdd_single h' h x _ (ix1 f)).trans ?_
  refine congrArg (init (Shape.Idx.first hu) + ·) ?_
  exact Finset.sum_congr rfl fun g _ => congrArg x (lift_col h f g)

end Cert.LibColumnSum
-- ==== Proof.LibBroadcastReads.lean ====
/-
  Four broadcasts between a vector and a matrix, read at an index: a vector of n entries as the one-row matrix [1, n];
  a vector of n entries as the one-column matrix [n, 1]; a one-row matrix [1, n] repeated down m rows; a one-column
  matrix [n, 1] repeated across m columns. Each reads the operand at the coordinate the broadcast keeps. And the
  host's sum of a matrix over its columns, read at a row: the initial value plus the sum of the row's entries.
-/
import Idealize.ShloMosaic.Lib.ValueIdx
import Idealize.ShloMosaic.Lib.Pipeline.Value
import Idealize.ShloMosaic.Lib.IdealHost

open scoped BigOperators

namespace Cert.LibBroadcastReads

open Idealize.ShloMosaic Idealize.ShloMosaic.ValueIdx

variable {α : Type}

/-- A vector as a one-row matrix, read at (u, j): the vector at j. -/
theorem vecRow_apply {n : ℕ} (h : (⟨1, ![n]⟩ : Shape).BroadcastsInDim (⟨2, ![1, n]⟩ : Shape) ![1])
    (x : (⟨1, ![n]⟩ : Shape).Idx → α) (u : Fin 1) (j : Fin n) :
    broadcastInDim (⟨2, ![1, n]⟩ : Shape) ![1] h x (ix2 u j) = x (ix1 j) := by
  refine broadcastInDim_apply ![1] h x (ix2 u j) (ix1 j) ?_
  intro a
  fin_cases a
  show j.val = if n = 1 then 0 else j.val
  split_ifs with hn
  · have := j.isLt; omega
  · rfl

/-- A vector as a one-column matrix, read at (r, u): the vector at r. -/
theorem vecCol_apply {n : ℕ} (h : (⟨1, ![n]⟩ : Shape).BroadcastsInDim (⟨2, ![n, 1]⟩ : Shape) ![0])
    (x : (⟨1, ![n]⟩ : Shape).Idx → α) (r : Fin n) (u : Fin 1) :
    broadcastInDim (⟨2, ![n, 1]⟩ : Shape) ![0] h x (ix2 r u) = x (ix1 r) := by
  refine broadcastInDim_apply ![0] h x (ix2 r u) (ix1 r) ?_
  intro a
  fin_cases a
  show r.val = if n = 1 then 0 else r.val
  split_ifs with hn
  · have := r.isLt; omega
  · rfl

/-- A one-row matrix repeated down m rows, read at (r, j): the row at (0, j). -/
theorem rowDown_apply {m n : ℕ} (h : (⟨2, ![1, n]⟩ : Shape).BroadcastsInDim (⟨2, ![m, n]⟩ : Shape) ![0, 1])
    (y : (⟨2, ![1, n]⟩ : Shape).Idx → α) (r : Fin m) (j : Fin n) :
    broadcastInDim (⟨2, ![m, n]⟩ : Shape) ![0, 1] h y (ix2 r j) = y (ix2 (0 : Fin 1) j) := by
  refine broadcastInDim_apply ![0, 1] h y (ix2 r j) (ix2 (0 : Fin 1) j) ?_
  intro a
  fin_cases a
  · show (0 : ℕ) = if (1 : ℕ) = 1 then 0 else _
    simp
  · show j.val = if n = 1 then 0 else j.val
    split_ifs with hn
    · have := j.isLt; omega
    · rfl

/-- A one-column matrix repeated across m columns, read at (r, j): the column at (r, 0). -/
theorem colAcross_apply {n m : ℕ} (h : (⟨2, ![n, 1]⟩ : Shape).BroadcastsInDim (⟨2, ![n, m]⟩ : Shape) ![0, 1])
    (y : (⟨2, ![n, 1]⟩ : Shape).Idx → α) (r : Fin n) (j : Fin m) :
    broadcastInDim (⟨2, ![n, m]⟩ : Shape) ![0, 1] h y (ix2 r j) = y (ix2 r (0 : Fin 1)) := by
  refine broadcastInDim_apply ![0, 1] h y (ix2 r j) (ix2 r (0 : Fin 1)) ?_
  intro a
  fin_cases a
  · show r.val = if n = 1 then 0 else r.val
    split_ifs with hn
    · have := r.isLt; omega
    · rfl
  · show (0 : ℕ) = if (1 : ℕ) = 1 then 0 else _
    simp

/-- The source index of a matrix over row r with column k inserted is (r, k). -/
theorem lift_row {m n : ℕ} (h : (⟨2, ![m, n]⟩ : Shape).Reduces [1] (⟨1, ![m]⟩ : Shape)) (r : Fin m) (k : Fin n) :
    h.lift (ix1 r) k = ix2 r k := by
  funext c
  apply Fin.ext
  match c with
  | ⟨0, _⟩ => rfl
  | ⟨1, _⟩ => rfl

/-- The host's sum of a matrix over its columns from an initial value, read at row r: the initial value plus the sum
    of the row's entries. -/
theorem hostRowSum_apply {m n : ℕ} {u : Shape} (x : FVec Ideal (⟨2, ![m, n]⟩ : Shape) .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (r : Fin m) :
    Host.reduceAdd x init h' hu (ix1 r) = init (Shape.Idx.first hu) + ∑ k : Fin n, x (ix2 r k) := by
  refine (hostReduceAdd_apply x init h' hu (ix1 r)).trans ?_
  refine (Ideal.hostReduceAdd_single h' h x _ (ix1 r)).trans ?_
  refine congrArg (init (Shape.Idx.first hu) + ·) ?_
  exact Finset.sum_congr rfl fun k _ => congrArg x (lift_row h r k)

end Cert.LibBroadcastReads
-- ==== Proof.TailSpec.lean ====
/-
  The specification's tail read entry by entry.

  The host-side chain (column sums by the host's reduce from the zero word, quotients by the broadcast word of 512, a
  variance whose divisor is 512 − 0 kept where that is positive, the reciprocal square root, the 64 → 24 and 24 → 1
  contractions) is, at entry (g, 0), the function tailAt of Proof/TailMath.lean: each broadcast reads its operand at the
  coordinate it keeps, each reduce is the initial value (the zero word, which is the real 0) plus the column's sum, each
  contraction is the sum over the contracted coordinate, and the guard on the divisor is true because 512 − 0 = 512 > 0.
-/
import proofs.«141279_j45071386804958_1_alg».proof.Proof.Spec
import proofs.«141279_j45071386804958_1_alg».proof.Proof.TailMath
import proofs.«141279_j45071386804958_1_alg».proof.Proof.LibColumnSum
import proofs.«141279_j45071386804958_1_alg».proof.Proof.LibBroadcastReads
import proofs.«141279_j45071386804958_1_alg».proof.Proof.LibPlainProduct
import Idealize.ShloMosaic.Lib.IdealHost

noncomputable section

open scoped BigOperators

namespace Cert.TailSpec

open Idealize.ShloMosaic Idealize.ShloMosaic.ValueIdx
open Cert.ReferenceIdeal Cert.ReferenceIdeal.Facts₀ Cert.ReferenceIdeal.Facts
open Cert.TailMath Cert.LibBroadcastReads Cert.LibColumnSum Cert.LibPlainProduct

variable [Cert.ReferenceIdeal.Facts]

/-- Summing a 512 × 64 array over its rows leaves 64 entries: the shape fact that names the inserted index. -/
theorem reduces_512x64 : (⟨2, ![512, 64]⟩ : Shape).Reduces [0] (⟨1, ![64]⟩ : Shape) := by decide

/-- A 64-vector repeated down 512 rows reads, at (g, f), the vector at f. -/
theorem rows64_apply (v : Vct 64) (g : Fin 512) (f : Fin 64) :
    Cert.Spec.rows64 (F := Ideal) v (ix2 g f) = v (ix1 f) := by
  unfold Cert.Spec.rows64
  exact (rowDown_apply bcast_S1x64_S512x64_0_1 _ g f).trans (vecRow_apply bcast_S64_S1x64_1 v 0 f)

/-- The host's column sum of a 512 × 64 array from the zero word, read at f: the column's sum. -/
theorem hostSum_apply (q : Mat 512 64) (f : Fin 64) :
    Host.reduceAdd (F := Ideal) (φ := .f32) q (Cert.Spec.zero0 (F := Ideal)) reducesTo_S512x64_S64_d0 h_S_ (ix1 f)
      = ∑ g : Fin 512, q (ix2 g f) := by
  refine (hostColSum_apply q _ reducesTo_S512x64_S64_d0 reduces_512x64 h_S_ f).trans ?_
  show Ideal.ofBits .f32 0x00000000#32 + _ = _
  rw [Ideal.ofBits_zero_f32, zero_add]

/-- The column means read at f. -/
theorem colMean_apply (p : Mat 512 64) (f : Fin 64) : Cert.Spec.colMean (F := Ideal) p (ix1 f) = mean p f := by
  unfold Cert.Spec.colMean mean
  refine (hostDivf_apply _ _ (ix1 f)).trans ?_
  refine congrArg₂ Ideal.div (hostSum_apply p f) ?_
  exact broadcastInDim_scalar_apply _ _ _

/-- The host's reciprocal square root is the ideal one at each entry. -/
theorem hostRsqrt_apply {s : Shape} (x : FVec Ideal s .f32) (i : s.Idx) : Host.rsqrt x i = Ideal.rsqrt (x i) := rfl

/-- The column means as the variance spells them (the sums made a row, divided by the row of 512s, repeated down the
    rows), read at (g, f): the mean of column f. -/
theorem meanRows_apply (p : Mat 512 64) (g : Fin 512) (f : Fin 64) :
    broadcastInDim S512x64 ![0, 1] bcast_S1x64_S512x64_0_1
        (Host.divf (F := Ideal) (φ := .f32)
          (broadcastInDim S1x64 ![1] bcast_S64_S1x64_1
            (Host.reduceAdd (F := Ideal) (φ := .f32) p (Cert.Spec.zero0 (F := Ideal)) reducesTo_S512x64_S64_d0 h_S_))
          (broadcastInDim S1x64 ![] bcast_S_S1x64 (constant (F := Ideal) S_ .f32 0x44000000#32))) (ix2 g f)
      = mean p f := by
  refine (rowDown_apply bcast_S1x64_S512x64_0_1 _ g f).trans ?_
  refine (hostDivf_apply _ _ _).trans ?_
  unfold mean
  refine congrArg₂ Ideal.div ((vecRow_apply bcast_S64_S1x64_1 _ 0 f).trans (hostSum_apply p f)) ?_
  exact broadcastInDim_scalar_apply _ _ _

/-- The column variances read at f: the guard on the divisor 512 − 0 holds, so the quotient is kept; the divisor is 512. -/
theorem colVar_apply (p : Mat 512 64) (f : Fin 64) : Cert.Spec.colVar (F := Ideal) p (ix1 f) = var p f := by
  unfold Cert.Spec.colVar
  refine (select_apply _ _ _ (ix1 f)).trans ?_
  have hc : broadcastInDim S64 ![] bcast_S_S64
      (cmpf (F := Ideal) .ogt (subf (constant (F := Ideal) S_ .f32 0x44000000#32) (sitofp .f32 (constantI S_ 32 0#32)))
        (Cert.Spec.zero0 (F := Ideal))) (ix1 f) = 1#1 :=
    (broadcastInDim_scalar_apply _ _ _).trans c512_pos_cmp
  refine (congrArg (fun c => Scalar.select c _ _) hc).trans ?_
  refine (select_one _ _).trans ?_
  refine (hostDivf_apply _ _ (ix1 f)).trans ?_
  unfold var
  refine congrArg₂ Ideal.div ?_ ?_
  · refine (hostSum_apply _ f).trans ?_
    refine Finset.sum_congr rfl fun g _ => ?_
    refine (mulf_apply _ _ _).trans ?_
    have e := (subf_apply p _ (ix2 g f)).trans (congrArg (p (ix2 g f) - ·) (meanRows_apply p g f))
    exact congrArg₂ (· * ·) e e
  · exact (broadcastInDim_scalar_apply _ _ _).trans c512_sub_zero

/-- The normalised array read at (g, f). -/
theorem normed_apply (p : Mat 512 64) (γ β : Vct 64) (g : Fin 512) (f : Fin 64) :
    Cert.Spec.normed (F := Ideal) p γ β (ix2 g f) = xn p γ β g f := by
  unfold Cert.Spec.normed xn
  refine (addf_apply _ _ _).trans (congrArg₂ (· + ·) ?_ (rows64_apply β g f))
  refine (mulf_apply _ _ _).trans (congrArg₂ (· * ·) ?_ (rows64_apply γ g f))
  refine (mulf_apply _ _ _).trans (congrArg₂ (· * ·) ?_ ?_)
  · exact (subf_apply _ _ _).trans (congrArg (p (ix2 g f) - ·) ((rows64_apply _ g f).trans (colMean_apply p f)))
  · refine (rows64_apply _ g f).trans ?_
    refine (hostRsqrt_apply _ _).trans (congrArg Ideal.rsqrt ?_)
    exact (addf_apply _ _ _).trans (congrArg₂ (· + ·) (colVar_apply p f) (broadcastInDim_scalar_apply _ _ _))

/-- The specification's tail read at (g, 0). -/
theorem tail_apply (p : Mat 512 64) (γ β : Vct 64) (w1 : Mat 64 24) (b1 : Vct 24) (w2 : Mat 24 1) (b2 : Vct 1) (g : Fin 512) :
    Cert.Spec.tail (F := Ideal) p γ β w1 b1 w2 b2 (ix2 g (0 : Fin 1)) = tailAt p γ β w1 b1 w2 b2 g := by
  unfold Cert.Spec.tail tailAt
  refine (addf_apply _ _ _).trans (congrArg₂ (· + ·) ?_ ?_)
  · refine (dotGeneral_plain_apply _ none _ w2 g (0 : Fin 1)).trans ?_
    refine Finset.sum_congr rfl fun a _ => congrArg₂ (· * ·) ?_ rfl
    unfold hid
    refine (maximumf_apply _ _ _).trans (congrArg₂ max ?_ (broadcastInDim_scalar_apply _ _ _))
    refine (addf_apply _ _ _).trans (congrArg₂ (· + ·) ?_ ?_)
    · refine (dotGeneral_plain_apply _ none _ w1 g a).trans ?_
      exact Finset.sum_congr rfl fun f _ => congrArg₂ (· * ·) (normed_apply p γ β g f) rfl
    · exact (rowDown_apply bcast_S1x24_S512x24_0_1 _ g a).trans (vecRow_apply bcast_S24_S1x24_1 b1 0 a)
  · exact (rowDown_apply bcast_S1x1_S512x1_0_1 _ g 0).trans (vecRow_apply bcast_S1_S1x1_1 b2 0 0)

end Cert.TailSpec

end
-- ==== Proof.TailPay.lean ====
/-
  The kernel's third region read entry by entry.

  The body's arithmetic is one pure term of the seven loaded arrays: column sums over the 512 rows (a lane reduction),
  divided by the splat of 512; the centred array; its squares' column sums, divided by 512; plus eps; the reciprocal
  square root; times gamma, plus beta; a change of format, which keeps every entry; the matrix unit into a zero
  accumulator with the 64 × 24 weights, plus the bias, against the splat of 0 under max; the matrix unit again with the
  24 × 1 weights; plus the last bias. The term is re-spelt here in four named stages (equal to the body's term by
  unfolding) and each stage is read at an index: a lane reduction over the rows is the column's sum, a vector made a row
  and repeated down the rows reads the vector at the column, the matrix unit into zero is the sum over the contracted
  coordinate. At entry (g, 0) the result is the function tailAt of Proof/TailMath.lean.
-/
import proofs.«141279_j45071386804958_1_alg».proof.Proof.Gen.KernelIdeal.Skeleton
import proofs.«141279_j45071386804958_1_alg».proof.Proof.TailMath
import proofs.«141279_j45071386804958_1_alg».proof.Proof.LibColumnSum
import proofs.«141279_j45071386804958_1_alg».proof.Proof.LibPlainProduct
import Idealize.ShloMosaic.Lib.ValueLayout
import Idealize.ShloMosaic.Lib.Pipeline.Value

noncomputable section

open scoped BigOperators

namespace Cert.TailPay

open Idealize.ShloMosaic Idealize.ShloMosaic.ValueIdx
open Cert.KernelIdeal Cert.KernelIdeal.Facts₀ Cert.KernelIdeal.Facts
open Cert.TailMath Cert.LibColumnSum Cert.LibPlainProduct

variable [Cert.KernelIdeal.Facts]

/-- The reciprocal square root of a vector is the ideal one at each entry. -/
theorem rsqrt_apply {s : Shape} (x : FVec Ideal s .f32) (i : s.Idx) : rsqrt x i = Ideal.rsqrt (x i) := rfl

/-- A vector made a row and repeated down m rows reads, at (g, f), the vector at f. -/
theorem rowsOf_apply {α : Type} {m n : ℕ} (v : (⟨1, ![n]⟩ : Shape).Idx → α)
    (hc : (⟨1, ![n]⟩ : Shape).ShapeCasts ⟨2, ![1, n]⟩) (hb : (⟨2, ![1, n]⟩ : Shape).Broadcasts ⟨2, ![m, n]⟩)
    (g : Fin m) (f : Fin n) :
    broadcastTo ⟨2, ![m, n]⟩ (shapeCast ⟨2, ![1, n]⟩ v hc) hb (ix2 g f) = v (ix1 f) :=
  (broadcastTo_1b_ab_apply _ hb g f).trans (shapeCast_a_1a_apply v hc 0 f)

/-- The centred array: each entry less its column's mean (the column sums made a row, divided by the row of 512s,
    repeated down the rows). -/
def kCent (x0 : Vec Ideal S512x64 .f32) : FVec Ideal S512x64 .f32 :=
  subf (shapeCast S512x64 x0 shapeCasts_S512x64_S512x64)
    (broadcastTo S512x64
      (divf
        (shapeCast S1x64
          (multiReduction (F := Ideal) .add [0] S64 (shapeCast S512x64 x0 shapeCasts_S512x64_S512x64) 0x00000000#32
            reduces_S512x64_S64 (.inl rfl) rfl)
          shapeCasts_S64_S1x64)
        (broadcast S1x64 (Scalar.ofBits .f32 0x44000000#32)))
      broadcasts_S1x64_S512x64)

/-- The row of column variances: the centred array's squares summed over the rows, divided by the row of 512s. -/
def kVarRow (x0 : Vec Ideal S512x64 .f32) : FVec Ideal S1x64 .f32 :=
  divf
    (shapeCast S1x64
      (multiReduction (F := Ideal) .add [0] S64 (mulf (kCent x0) (kCent x0)) 0x00000000#32 reduces_S512x64_S64 (.inl rfl) rfl)
      shapeCasts_S64_S1x64)
    (broadcast S1x64 (Scalar.ofBits .f32 0x44000000#32))

/-- The normalised array: centred, times (variance + eps)^(-1/2), times gamma, plus beta. -/
def kNorm (x0 : Vec Ideal S512x64 .f32) (x1 x2 : Vec Ideal S64 .f32) : FVec Ideal S512x64 .f32 :=
  addf
    (mulf
      (mulf (kCent x0)
        (broadcastTo S512x64 (rsqrt (addf (kVarRow x0) (broadcast S1x64 (Scalar.ofBits .f32 0x3727C5AC#32))))
          broadcasts_S1x64_S512x64))
      (broadcastTo S512x64 (shapeCast S1x64 x1 shapeCasts_S64_S1x64) broadcasts_S1x64_S512x64))
    (broadcastTo S512x64 (shapeCast S1x64 x2 shapeCasts_S64_S1x64) broadcasts_S1x64_S512x64)

/-- The hidden layer: the normalised array through the 64 × 24 matrix unit into zero, plus the bias, under max with 0. -/
def kHid (x0 : Vec Ideal S512x64 .f32) (x1 x2 : Vec Ideal S64 .f32) (x3 : Vec Ideal S64x24 .f32) (x4 : Vec Ideal S24 .f32) :
    FVec Ideal S512x24 .f32 :=
  maximumf
    (addf
      (matmul dot_S512x64_S64x24_S512x24_1_0_0_1_n_n none (truncf .bf16 (kNorm x0 x1 x2) bitsLt_bf16_f32)
        (truncf .bf16 x3 bitsLt_bf16_f32) (constant S512x24 .f32 0x00000000#32))
      (broadcastTo S512x24 (shapeCast S1x24 x4 shapeCasts_S24_S1x24) broadcasts_S1x24_S512x24))
    (broadcast S512x24 (Scalar.ofBits .f32 0x00000000#32))

/-- The body's term before the last bias is the hidden layer through the 24 × 1 matrix unit into zero: the stages above
    are the body's own operations in its own order. -/
theorem pay2_eq (x0 : Vec Ideal S512x64 .f32) (x1 x2 : Vec Ideal S64 .f32) (x3 : Vec Ideal S64x24 .f32)
    (x4 : Vec Ideal S24 .f32) (x5 : Vec Ideal S24x1 .f32) :
    Gen.k2_pay2 (F := Ideal) x0 x1 x2 x3 x4 x5
      = matmul dot_S512x24_S24x1_S512x1_1_0_0_1_n_n none (truncf .bf16 (kHid x0 x1 x2 x3 x4) bitsLt_bf16_f32)
          (truncf .bf16 x5 bitsLt_bf16_f32) (constant S512x1 .f32 0x00000000#32) := rfl

/-- The lane sum of a 512 × 64 array over its rows, made a row and divided by the row of 512s, read at (u, f). -/
theorem sumRowDiv_apply (q : FVec Ideal S512x64 .f32) (u : Fin 1) (f : Fin 64) :
    divf
        (shapeCast S1x64
          (multiReduction (F := Ideal) .add [0] S64 q 0x00000000#32 reduces_S512x64_S64 (.inl rfl) rfl) shapeCasts_S64_S1x64)
        (broadcast S1x64 (Scalar.ofBits .f32 0x44000000#32)) (ix2 u f)
      = Ideal.div (∑ g : Fin 512, q (ix2 g f)) c512 := by
  refine (divf_apply _ _ _).trans (congrArg₂ Ideal.div ?_ rfl)
  refine (shapeCast_a_1a_apply _ shapeCasts_S64_S1x64 u f).trans ?_
  exact laneColSum_apply q _ reduces_S512x64_S64 _ _ f

/-- The centred array read at (g, f). -/
theorem kCent_apply (x0 : Mat 512 64) (g : Fin 512) (f : Fin 64) : kCent x0 (ix2 g f) = x0 (ix2 g f) - mean x0 f := by
  unfold kCent mean
  refine (subf_apply _ _ _).trans (congrArg₂ (· - ·) (congrFun (shapeCast_self x0 _) (ix2 g f)) ?_)
  refine (broadcastTo_1b_ab_apply _ broadcasts_S1x64_S512x64 g f).trans ?_
  refine (sumRowDiv_apply _ 0 f).trans (congrArg (Ideal.div · c512) ?_)
  exact Finset.sum_congr rfl fun g' _ => congrFun (shapeCast_self x0 _) (ix2 g' f)

/-- The row of variances read at (u, f). -/
theorem kVarRow_apply (x0 : Mat 512 64) (u : Fin 1) (f : Fin 64) : kVarRow x0 (ix2 u f) = var x0 f := by
  unfold kVarRow var
  refine (sumRowDiv_apply _ u f).trans (congrArg (Ideal.div · c512) ?_)
  refine Finset.sum_congr rfl fun g _ => ?_
  exact (mulf_apply _ _ _).trans (congrArg₂ (· * ·) (kCent_apply x0 g f) (kCent_apply x0 g f))

/-- The normalised array read at (g, f). -/
theorem kNorm_apply (x0 : Mat 512 64) (x1 x2 : Vct 64) (g : Fin 512) (f : Fin 64) :
    kNorm x0 x1 x2 (ix2 g f) = xn x0 x1 x2 g f := by
  unfold kNorm xn
  refine (addf_apply _ _ _).trans (congrArg₂ (· + ·) ?_ (rowsOf_apply x2 _ _ g f))
  refine (mulf_apply _ _ _).trans (congrArg₂ (· * ·) ?_ (rowsOf_apply x1 _ _ g f))
  refine (mulf_apply _ _ _).trans (congrArg₂ (· * ·) (kCent_apply x0 g f) ?_)
  refine (broadcastTo_1b_ab_apply _ broadcasts_S1x64_S512x64 g f).trans ?_
  refine (rsqrt_apply _ _).trans (congrArg Ideal.rsqrt ?_)
  exact (addf_apply _ _ _).trans (congrArg₂ (· + ·) (kVarRow_apply x0 0 f) rfl)

/-- The hidden layer read at (g, a). -/
theorem kHid_apply (x0 : Mat 512 64) (x1 x2 : Vct 64) (x3 : Mat 64 24) (x4 : Vct 24) (g : Fin 512) (a : Fin 24) :
    kHid x0 x1 x2 x3 x4 (ix2 g a) = hid x0 x1 x2 x3 x4 g a := by
  unfold kHid hid
  refine (maximumf_apply _ _ _).trans (congrArg₂ max ?_ rfl)
  refine (addf_apply _ _ _).trans (congrArg₂ (· + ·) ?_ (rowsOf_apply x4 _ _ g a))
  refine (matmul_zero_plain_apply _ none _ _ g a).trans ?_
  exact Finset.sum_congr rfl fun f _ => congrArg₂ (· * ·) (kNorm_apply x0 x1 x2 g f) rfl

/-- The body's whole term read at (g, 0). -/
theorem pay_apply (x0 : Mat 512 64) (x1 x2 : Vct 64) (x3 : Mat 64 24) (x4 : Vct 24) (x5 : Mat 24 1) (x6 : Vct 1) (g : Fin 512) :
    Gen.k2_pay1 (F := Ideal) (Gen.k2_pay2 (F := Ideal) x0 x1 x2 x3 x4 x5) x6 (ix2 g (0 : Fin 1))
      = tailAt x0 x1 x2 x3 x4 x5 x6 g := by
  unfold Gen.k2_pay1 tailAt
  rw [pay2_eq]
  refine (addf_apply _ _ _).trans (congrArg₂ (· + ·) ?_ (rowsOf_apply x6 _ _ g 0))
  refine (matmul_zero_plain_apply _ none _ _ g (0 : Fin 1)).trans ?_
  exact Finset.sum_congr rfl fun a _ => congrArg₂ (· * ·) (kHid_apply x0 x1 x2 x3 x4 g a) rfl

end Cert.TailPay

end
-- ==== Proof.TailVal.lean ====
/-
  The third region's result is the specification's tail of the arrays the region finds.

  The region has one grid point and every window's block is its whole array at block index 0, so a block read is the
  array itself (its coordinate is 0 · size + 1 · the coordinate inside the block), the one point's write-back covers the
  whole result, and what it writes is the body's term of the seven arrays. That term and the specification's tail are
  the same function: at entry (g, 0) both are tailAt of Proof/TailMath.lean (Proof/TailPay.lean, Proof/TailSpec.lean), and
  a 512 × 1 array has no other entries.
-/
import proofs.«141279_j45071386804958_1_alg».proof.Proof.Gen.KernelIdeal.Frame
import proofs.«141279_j45071386804958_1_alg».proof.Proof.TailSpec
import proofs.«141279_j45071386804958_1_alg».proof.Proof.TailPay

noncomputable section

open scoped BigOperators

namespace Cert.KernelIdeal.TailVal

open Idealize.ShloMosaic Idealize.ShloMosaic.TcCoe Idealize.ShloMosaic.ValueIdx
open Idealize.SL Idealize.SL.Sem
open Idealize.ShloMosaic.Pipeline (Dat Cfg Window)
open Cert.KernelIdeal.Facts₀ Cert.KernelIdeal.Facts
open Cert.TailMath

variable [Cert.KernelIdeal.Facts] [Cert.ReferenceIdeal.Facts]

/-- The body's term and the specification's tail are one function of the seven arrays. -/
theorem pay_eq_tail (x0 : Mat 512 64) (x1 x2 : Vct 64) (x3 : Mat 64 24) (x4 : Vct 24) (x5 : Mat 24 1) (x6 : Vct 1) :
    Gen.k2_pay1 (F := Ideal) (Gen.k2_pay2 (F := Ideal) x0 x1 x2 x3 x4 x5) x6
      = Cert.Spec.tail (F := Ideal) x0 x1 x2 x3 x4 x5 x6 := by
  funext j
  obtain ⟨g, u, rfl⟩ : ∃ (g : Fin 512) (u : Fin 1), j = ix2 g u := ⟨j 0, j 1, eq_ix2 j⟩
  obtain rfl : u = 0 := Subsingleton.elim _ _
  exact (Cert.TailPay.pay_apply x0 x1 x2 x3 x4 x5 x6 g).trans (Cert.TailSpec.tail_apply x0 x1 x2 x3 x4 x5 x6 g).symm

/-- The same with the blocks and the arrays as separate variables that are equal. -/
theorem pay_eq_tail_of_eq (x0 A0 : Mat 512 64) (x1 A1 x2 A2 : Vct 64) (x3 A3 : Mat 64 24) (x4 A4 : Vct 24) (x5 A5 : Mat 24 1)
    (x6 A6 : Vct 1) (h0 : x0 = A0) (h1 : x1 = A1) (h2 : x2 = A2) (h3 : x3 = A3) (h4 : x4 = A4) (h5 : x5 = A5) (h6 : x6 = A6) :
    Gen.k2_pay1 (F := Ideal) (Gen.k2_pay2 (F := Ideal) x0 x1 x2 x3 x4 x5) x6
      = Cert.Spec.tail (F := Ideal) A0 A1 A2 A3 A4 A5 A6 := by
  subst h0 h1 h2 h3 h4 h5 h6
  exact pay_eq_tail x0 x1 x2 x3 x4 x5 x6

/-- The zero offsets of a whole-array access, however spelt. -/
theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-- Window 0's block at the one point is its whole array. -/
theorem blk0 (c : Dev nD) (t : Fin cfg2.N) :
    (Gen.iblk2 (F := Ideal) V c 0 t : Mat 512 64) = (V c (Pipeline.arrRef spec2 0) : Mat 512 64) := by
  funext j
  show V c (Pipeline.arrRef spec2 0) (((cfg2.win 0).blk t).view.emb j) = V c (Pipeline.arrRef spec2 0) j
  refine congrArg _ ?_
  funext a
  apply Fin.ext
  match a with
  | ⟨0, _⟩ =>
    show win2_0.index t (0 : Fin 2) * 512 + 1 * (j 0).val = (j 0).val
    have h : win2_0.index t (0 : Fin 2) = 0 := rfl
    omega
  | ⟨1, _⟩ =>
    show win2_0.index t (1 : Fin 2) * 64 + 1 * (j 1).val = (j 1).val
    have h : win2_0.index t (1 : Fin 2) = 0 := rfl
    omega

/-- Window 1's block at the one point is its whole array. -/
theorem blk1 (c : Dev nD) (t : Fin cfg2.N) :
    (Gen.iblk2 (F := Ideal) V c 1 t : Vct 64) = (V c (Pipeline.arrRef spec2 1) : Vct 64) := by
  funext j
  show V c (Pipeline.arrRef spec2 1) (((cfg2.win 1).blk t).view.emb j) = V c (Pipeline.arrRef spec2 1) j
  refine congrArg _ ?_
  funext a
  apply Fin.ext
  match a with
  | ⟨0, _⟩ =>
    show win2_1.index t (0 : Fin 1) * 64 + 1 * (j 0).val = (j 0).val
    have h : win2_1.index t (0 : Fin 1) = 0 := rfl
    omega

/-- Window 2's block at the one point is its whole array. -/
theorem blk2 (c : Dev nD) (t : Fin cfg2.N) :
    (Gen.iblk2 (F := Ideal) V c 2 t : Vct 64) = (V c (Pipeline.arrRef spec2 2) : Vct 64) := by
  funext j
  show V c (Pipeline.arrRef spec2 2) (((cfg2.win 2).blk t).view.emb j) = V c (Pipeline.arrRef spec2 2) j
  refine congrArg _ ?_
  funext a
  apply Fin.ext
  match a with
  | ⟨0, _⟩ =>
    show win2_2.index t (0 : Fin 1) * 64 + 1 * (j 0).val = (j 0).val
    have h : win2_2.index t (0 : Fin 1) = 0 := rfl
    omega

/-- Window 3's block at the one point is its whole array. -/
theorem blk3 (c : Dev nD) (t : Fin cfg2.N) :
    (Gen.iblk2 (F := Ideal) V c 3 t : Mat 64 24) = (V c (Pipeline.arrRef spec2 3) : Mat 64 24) := by
  funext j
  show V c (Pipeline.arrRef spec2 3) (((cfg2.win 3).blk t).view.emb j) = V c (Pipeline.arrRef spec2 3) j
  refine congrArg _ ?_
  funext a
  apply Fin.ext
  match a with
  | ⟨0, _⟩ =>
    show win2_3.index t (0 : Fin 2) * 64 + 1 * (j 0).val = (j 0).val
    have h : win2_3.index t (0 : Fin 2) = 0 := rfl
    omega
  | ⟨1, _⟩ =>
    show win2_3.index t (1 : Fin 2) * 24 + 1 * (j 1).val = (j 1).val
    have h : win2_3.index t (1 : Fin 2) = 0 := rfl
    omega

/-- Window 4's block at the one point is its whole array. -/
theorem blk4 (c : Dev nD) (t : Fin cfg2.N) :
    (Gen.iblk2 (F := Ideal) V c 4 t : Vct 24) = (V c (Pipeline.arrRef spec2 4) : Vct 24) := by
  funext j
  show V c (Pipeline.arrRef spec2 4) (((cfg2.win 4).blk t).view.emb j) = V c (Pipeline.arrRef spec2 4) j
  refine congrArg _ ?_
  funext a
  apply Fin.ext
  match a with
  | ⟨0, _⟩ =>
    show win2_4.index t (0 : Fin 1) * 24 + 1 * (j 0).val = (j 0).val
    have h : win2_4.index t (0 : Fin 1) = 0 := rfl
    omega

/-- Window 5's block at the one point is its whole array. -/
theorem blk5 (c : Dev nD) (t : Fin cfg2.N) :
    (Gen.iblk2 (F := Ideal) V c 5 t : Mat 24 1) = (V c (Pipeline.arrRef spec2 5) : Mat 24 1) := by
  funext j
  show V c (Pipeline.arrRef spec2 5) (((cfg2.win 5).blk t).view.emb j) = V c (Pipeline.arrRef spec2 5) j
  refine congrArg _ ?_
  funext a
  apply Fin.ext
  match a with
  | ⟨0, _⟩ =>
    show win2_5.index t (0 : Fin 2) * 24 + 1 * (j 0).val = (j 0).val
    have h : win2_5.index t (0 : Fin 2) = 0 := rfl
    omega
  | ⟨1, _⟩ =>
    show win2_5.index t (1 : Fin 2) * 1 + 1 * (j 1).val = (j 1).val
    have h : win2_5.index t (1 : Fin 2) = 0 := rfl
    omega

/-- Window 6's block at the one point is its whole array. -/
theorem blk6 (c : Dev nD) (t : Fin cfg2.N) :
    (Gen.iblk2 (F := Ideal) V c 6 t : Vct 1) = (V c (Pipeline.arrRef spec2 6) : Vct 1) := by
  funext j
  show V c (Pipeline.arrRef spec2 6) (((cfg2.win 6).blk t).view.emb j) = V c (Pipeline.arrRef spec2 6) j
  refine congrArg _ ?_
  funext a
  apply Fin.ext
  match a with
  | ⟨0, _⟩ =>
    show win2_6.index t (0 : Fin 1) * 1 + 1 * (j 0).val = (j 0).val
    have h : win2_6.index t (0 : Fin 1) = 0 := rfl
    omega

/-- Reading the result's one block out of a 512 × 1 array reads the array. -/
theorem read7 (t : Fin cfg2.N) (G : Mat 512 1) :
    (((cfg2.win 7).blk t).view.read (Elt Ideal) G : Mat 512 1) = G := by
  refine funext fun (j : (⟨2, ![512, 1]⟩ : Shape).Idx) => ?_
  show G (((cfg2.win 7).blk t).view.emb j) = G j
  refine congrArg _ ?_
  funext a
  apply Fin.ext
  match a with
  | ⟨0, _⟩ =>
    show win2_7.index t (0 : Fin 2) * 512 + 1 * (j 0).val = (j 0).val
    have h : win2_7.index t (0 : Fin 2) = 0 := rfl
    omega
  | ⟨1, _⟩ =>
    show win2_7.index t (1 : Fin 2) * 1 + 1 * (j 1).val = (j 1).val
    have h : win2_7.index t (1 : Fin 2) = 0 := rfl
    omega

/-- What the one point writes back is the block of the specification's tail of the arrays the region finds. -/
theorem flushed_eq (c : Dev nD) (t : Fin cfg2.N) :
    (Gen.dat2 (F := Ideal) V c).flushed 7 t
      = ((cfg2.win 7).blk t).view.read (Elt Ideal)
          (Cert.Spec.tail (F := Ideal) (V c (Pipeline.arrRef spec2 0)) (V c (Pipeline.arrRef spec2 1))
            (V c (Pipeline.arrRef spec2 2)) (V c (Pipeline.arrRef spec2 3)) (V c (Pipeline.arrRef spec2 4))
            (V c (Pipeline.arrRef spec2 5)) (V c (Pipeline.arrRef spec2 6))) := by
  show (cfg2.win 7).cut (grid2.coords t) ((Gen.dat2 (F := Ideal) V c).after 7 t) = _
  rw [Gen.after2_7]
  unfold Gen.out2_7
  rw [View.canon_unit_zero hz2]
  simp only [View.ld_unit_zero (S := S512x64) hz2, View.ld_unit_zero (S := S64x24) hz2, View.ld_unit_zero (S := S24x1) hz2,
    View.ld_unit_zero (S := S64) hz1, View.ld_unit_zero (S := S24) hz1, View.ld_unit_zero (S := S1) hz1]
  refine (pay_eq_tail_of_eq (Gen.iblk2 (F := Ideal) V c 0 t) (V c (Pipeline.arrRef spec2 0))
    (Gen.iblk2 (F := Ideal) V c 1 t) (V c (Pipeline.arrRef spec2 1)) (Gen.iblk2 (F := Ideal) V c 2 t) (V c (Pipeline.arrRef spec2 2))
    (Gen.iblk2 (F := Ideal) V c 3 t) (V c (Pipeline.arrRef spec2 3)) (Gen.iblk2 (F := Ideal) V c 4 t) (V c (Pipeline.arrRef spec2 4))
    (Gen.iblk2 (F := Ideal) V c 5 t) (V c (Pipeline.arrRef spec2 5)) (Gen.iblk2 (F := Ideal) V c 6 t) (V c (Pipeline.arrRef spec2 6))
    (blk0 V c t) (blk1 V c t) (blk2 V c t) (blk3 V c t) (blk4 V c t) (blk5 V c t) (blk6 V c t)).trans ?_
  exact (read7 t _).symm

/-- An index of the result is in the one point's block iff each coordinate is in the block's range on its axis. -/
theorem mem_blk7 (t : Fin cfg2.N) (i : S512x1.Idx) :
    i ∈ ((cfg2.win 7).blk t).view.set
      ↔ ∀ a : Fin 2, win2_7.index t a * S512x1.size a ≤ (i a).val ∧ (i a).val < win2_7.index t a * S512x1.size a + S512x1.size a := by
  show i ∈ ((View.whole main_v69).slice (win2_7.rect t)).set ↔ _
  rw [View.set_slice_whole, Rect.mem_set_unit]
  exact Iff.rfl

/-- Every index of the result is in the one point's block, and that point writes its block back. -/
theorem cover7 (i : S512x1.Idx) : ∃ t : Fin cfg2.N, (cfg2.win 7).flush t = true ∧ i ∈ ((cfg2.win 7).blk t).view.set := by
  refine ⟨Gen.t2_0, Gen.flush2_7 Gen.t2_0, ?_⟩
  rw [mem_blk7]
  intro a
  match a with
  | ⟨0, _⟩ =>
    show win2_7.index Gen.t2_0 (0 : Fin 2) * 512 ≤ (i 0).val ∧ (i 0).val < win2_7.index Gen.t2_0 (0 : Fin 2) * 512 + 512
    have h : win2_7.index Gen.t2_0 (0 : Fin 2) = 0 := rfl
    have hi : (i 0).val < 512 := (i 0).isLt
    omega
  | ⟨1, _⟩ =>
    show win2_7.index Gen.t2_0 (1 : Fin 2) * 1 ≤ (i 1).val ∧ (i 1).val < win2_7.index Gen.t2_0 (1 : Fin 2) * 1 + 1
    have h : win2_7.index Gen.t2_0 (1 : Fin 2) = 0 := rfl
    have hi : (i 1).val < 1 := (i 1).isLt
    omega

/-- The third region leaves, in its result array, the specification's tail of the seven arrays it finds. -/
theorem region2 (c : Dev nD) :
    (Gen.dat2 (F := Ideal) V c).arrAt 7 cfg2.N
      = Cert.Spec.tail (F := Ideal) (V c (Pipeline.arrRef spec2 0)) (V c (Pipeline.arrRef spec2 1))
          (V c (Pipeline.arrRef spec2 2)) (V c (Pipeline.arrRef spec2 3)) (V c (Pipeline.arrRef spec2 4))
          (V c (Pipeline.arrRef spec2 5)) (V c (Pipeline.arrRef spec2 6)) :=
  (Gen.dat2 (F := Ideal) V c).arrAt_eq_of_cover 7 _ (fun t _ => flushed_eq V c t) (fun i => cover7 i)

end Cert.KernelIdeal.TailVal

end
-- ==== Proof.KFold.lean ====
/-
  The two results of the idealized kernel program as the specification's functions of the argument arrays.

  The buffer contents at the program's boundaries are a fold from the launch memory (stretches of host operations,
  regions replacing their arrays by what their write-backs leave). Walking it from the end: the second result is
  an input of the last region, so it is what the third stretch left — the per-graph sums of the second layer —;
  the first result is the last region's output, the normalise-and-project tail of those sums. The second layer is
  applied to the second region's product (first layer) · W2, the first layer to the first region's product x · W1,
  and the edge rows, the edge weights and every argument are read back through the boundaries unchanged.
-/
import proofs.«141279_j45071386804958_1_alg».proof.Proof.Gen.KernelIdeal.Frame
import proofs.«141279_j45071386804958_1_alg».proof.Proof.Gen.ReferenceIdeal
import proofs.«141279_j45071386804958_1_alg».proof.Proof.Spec
import proofs.«141279_j45071386804958_1_alg».proof.Proof.KStretch
import proofs.«141279_j45071386804958_1_alg».proof.Proof.MatVal
import proofs.«141279_j45071386804958_1_alg».proof.Proof.TailVal
import Idealize.ShloMosaic.Lib.StableHlo.Run
import Idealize.ShloMosaic.PureOps.Ideal

set_option maxRecDepth 16384

noncomputable section

namespace Cert.KernelIdeal.KFold

open Idealize.ShloMosaic Idealize.ShloMosaic.TcCoe Idealize.SL.Sem
open Cert.KernelIdeal Cert.KernelIdeal.Gen Cert.KernelIdeal.KStretch
open Idealize.ShloMosaic.StableHlo

section Chain

variable (m : (ℓ : Loc nD τ sig) → Buf (Elt Ideal) ℓ) (ρ : Dev nD → PrngReg) (c : Dev nD)

/-! ## The arguments, and the edge rows and weights, at each boundary

No host operation and no region writes an argument, and after the first stretch nothing writes the edge rows or
the edge weights: each is read back, boundary by boundary, to the launch memory or to its defining term. -/

theorem a3_main_arg0 : W3 m ρ c (Proc.devRef .tc main_arg0) = m ((c : Thread nD τ).loc main_arg0) := A_keep_main_arg0 (W0 m ρ c)
theorem a3_main_arg2 : W3 m ρ c (Proc.devRef .tc main_arg2) = m ((c : Thread nD τ).loc main_arg2) := A_keep_main_arg2 (W0 m ρ c)
theorem a3_main_arg3 : W3 m ρ c (Proc.devRef .tc main_arg3) = m ((c : Thread nD τ).loc main_arg3) := A_keep_main_arg3 (W0 m ρ c)
theorem a3_main_arg4 : W3 m ρ c (Proc.devRef .tc main_arg4) = m ((c : Thread nD τ).loc main_arg4) := A_keep_main_arg4 (W0 m ρ c)
theorem a3_main_arg5 : W3 m ρ c (Proc.devRef .tc main_arg5) = m ((c : Thread nD τ).loc main_arg5) := A_keep_main_arg5 (W0 m ρ c)
theorem a3_main_arg6 : W3 m ρ c (Proc.devRef .tc main_arg6) = m ((c : Thread nD τ).loc main_arg6) := A_keep_main_arg6 (W0 m ρ c)
theorem a3_main_arg7 : W3 m ρ c (Proc.devRef .tc main_arg7) = m ((c : Thread nD τ).loc main_arg7) := A_keep_main_arg7 (W0 m ρ c)
theorem a3_main_arg8 : W3 m ρ c (Proc.devRef .tc main_arg8) = m ((c : Thread nD τ).loc main_arg8) := A_keep_main_arg8 (W0 m ρ c)
theorem a3_main_arg9 : W3 m ρ c (Proc.devRef .tc main_arg9) = m ((c : Thread nD τ).loc main_arg9) := A_keep_main_arg9 (W0 m ρ c)
theorem a3_main_arg10 : W3 m ρ c (Proc.devRef .tc main_arg10) = m ((c : Thread nD τ).loc main_arg10) := A_keep_main_arg10 (W0 m ρ c)
theorem a3_main_arg11 : W3 m ρ c (Proc.devRef .tc main_arg11) = m ((c : Thread nD τ).loc main_arg11) := A_keep_main_arg11 (W0 m ρ c)
theorem a3_main_arg12 : W3 m ρ c (Proc.devRef .tc main_arg12) = m ((c : Thread nD τ).loc main_arg12) := A_keep_main_arg12 (W0 m ρ c)
theorem a4_main_arg2 : W4 m ρ c (Proc.devRef .tc main_arg2) = m ((c : Thread nD τ).loc main_arg2) := (W4_of_ne m ρ c main_arg2 (by decide)).trans (a3_main_arg2 m ρ c)
theorem a4_main_arg4 : W4 m ρ c (Proc.devRef .tc main_arg4) = m ((c : Thread nD τ).loc main_arg4) := (W4_of_ne m ρ c main_arg4 (by decide)).trans (a3_main_arg4 m ρ c)
theorem a4_main_arg5 : W4 m ρ c (Proc.devRef .tc main_arg5) = m ((c : Thread nD τ).loc main_arg5) := (W4_of_ne m ρ c main_arg5 (by decide)).trans (a3_main_arg5 m ρ c)
theorem a4_main_arg6 : W4 m ρ c (Proc.devRef .tc main_arg6) = m ((c : Thread nD τ).loc main_arg6) := (W4_of_ne m ρ c main_arg6 (by decide)).trans (a3_main_arg6 m ρ c)
theorem a4_main_arg7 : W4 m ρ c (Proc.devRef .tc main_arg7) = m ((c : Thread nD τ).loc main_arg7) := (W4_of_ne m ρ c main_arg7 (by decide)).trans (a3_main_arg7 m ρ c)
theorem a4_main_arg8 : W4 m ρ c (Proc.devRef .tc main_arg8) = m ((c : Thread nD τ).loc main_arg8) := (W4_of_ne m ρ c main_arg8 (by decide)).trans (a3_main_arg8 m ρ c)
theorem a4_main_arg9 : W4 m ρ c (Proc.devRef .tc main_arg9) = m ((c : Thread nD τ).loc main_arg9) := (W4_of_ne m ρ c main_arg9 (by decide)).trans (a3_main_arg9 m ρ c)
theorem a4_main_arg10 : W4 m ρ c (Proc.devRef .tc main_arg10) = m ((c : Thread nD τ).loc main_arg10) := (W4_of_ne m ρ c main_arg10 (by decide)).trans (a3_main_arg10 m ρ c)
theorem a4_main_arg11 : W4 m ρ c (Proc.devRef .tc main_arg11) = m ((c : Thread nD τ).loc main_arg11) := (W4_of_ne m ρ c main_arg11 (by decide)).trans (a3_main_arg11 m ρ c)
theorem a4_main_arg12 : W4 m ρ c (Proc.devRef .tc main_arg12) = m ((c : Thread nD τ).loc main_arg12) := (W4_of_ne m ρ c main_arg12 (by decide)).trans (a3_main_arg12 m ρ c)
theorem a6_main_arg2 : W6 m ρ c (Proc.devRef .tc main_arg2) = m ((c : Thread nD τ).loc main_arg2) := (B_keep_main_arg2 (W4 m ρ c)).trans (a4_main_arg2 m ρ c)
theorem a6_main_arg5 : W6 m ρ c (Proc.devRef .tc main_arg5) = m ((c : Thread nD τ).loc main_arg5) := (B_keep_main_arg5 (W4 m ρ c)).trans (a4_main_arg5 m ρ c)
theorem a6_main_arg6 : W6 m ρ c (Proc.devRef .tc main_arg6) = m ((c : Thread nD τ).loc main_arg6) := (B_keep_main_arg6 (W4 m ρ c)).trans (a4_main_arg6 m ρ c)
theorem a6_main_arg7 : W6 m ρ c (Proc.devRef .tc main_arg7) = m ((c : Thread nD τ).loc main_arg7) := (B_keep_main_arg7 (W4 m ρ c)).trans (a4_main_arg7 m ρ c)
theorem a6_main_arg8 : W6 m ρ c (Proc.devRef .tc main_arg8) = m ((c : Thread nD τ).loc main_arg8) := (B_keep_main_arg8 (W4 m ρ c)).trans (a4_main_arg8 m ρ c)
theorem a6_main_arg9 : W6 m ρ c (Proc.devRef .tc main_arg9) = m ((c : Thread nD τ).loc main_arg9) := (B_keep_main_arg9 (W4 m ρ c)).trans (a4_main_arg9 m ρ c)
theorem a6_main_arg10 : W6 m ρ c (Proc.devRef .tc main_arg10) = m ((c : Thread nD τ).loc main_arg10) := (B_keep_main_arg10 (W4 m ρ c)).trans (a4_main_arg10 m ρ c)
theorem a6_main_arg11 : W6 m ρ c (Proc.devRef .tc main_arg11) = m ((c : Thread nD τ).loc main_arg11) := (B_keep_main_arg11 (W4 m ρ c)).trans (a4_main_arg11 m ρ c)
theorem a6_main_arg12 : W6 m ρ c (Proc.devRef .tc main_arg12) = m ((c : Thread nD τ).loc main_arg12) := (B_keep_main_arg12 (W4 m ρ c)).trans (a4_main_arg12 m ρ c)
theorem a7_main_arg2 : W7 m ρ c (Proc.devRef .tc main_arg2) = m ((c : Thread nD τ).loc main_arg2) := (W7_of_ne m ρ c main_arg2 (by decide)).trans (a6_main_arg2 m ρ c)
theorem a7_main_arg6 : W7 m ρ c (Proc.devRef .tc main_arg6) = m ((c : Thread nD τ).loc main_arg6) := (W7_of_ne m ρ c main_arg6 (by decide)).trans (a6_main_arg6 m ρ c)
theorem a7_main_arg7 : W7 m ρ c (Proc.devRef .tc main_arg7) = m ((c : Thread nD τ).loc main_arg7) := (W7_of_ne m ρ c main_arg7 (by decide)).trans (a6_main_arg7 m ρ c)
theorem a7_main_arg8 : W7 m ρ c (Proc.devRef .tc main_arg8) = m ((c : Thread nD τ).loc main_arg8) := (W7_of_ne m ρ c main_arg8 (by decide)).trans (a6_main_arg8 m ρ c)
theorem a7_main_arg9 : W7 m ρ c (Proc.devRef .tc main_arg9) = m ((c : Thread nD τ).loc main_arg9) := (W7_of_ne m ρ c main_arg9 (by decide)).trans (a6_main_arg9 m ρ c)
theorem a7_main_arg10 : W7 m ρ c (Proc.devRef .tc main_arg10) = m ((c : Thread nD τ).loc main_arg10) := (W7_of_ne m ρ c main_arg10 (by decide)).trans (a6_main_arg10 m ρ c)
theorem a7_main_arg11 : W7 m ρ c (Proc.devRef .tc main_arg11) = m ((c : Thread nD τ).loc main_arg11) := (W7_of_ne m ρ c main_arg11 (by decide)).trans (a6_main_arg11 m ρ c)
theorem a7_main_arg12 : W7 m ρ c (Proc.devRef .tc main_arg12) = m ((c : Thread nD τ).loc main_arg12) := (W7_of_ne m ρ c main_arg12 (by decide)).trans (a6_main_arg12 m ρ c)
theorem a10_main_arg7 : W10 m ρ c (Proc.devRef .tc main_arg7) = m ((c : Thread nD τ).loc main_arg7) := (C_keep_main_arg7 (W7 m ρ c)).trans (a7_main_arg7 m ρ c)
theorem a10_main_arg8 : W10 m ρ c (Proc.devRef .tc main_arg8) = m ((c : Thread nD τ).loc main_arg8) := (C_keep_main_arg8 (W7 m ρ c)).trans (a7_main_arg8 m ρ c)
theorem a10_main_arg9 : W10 m ρ c (Proc.devRef .tc main_arg9) = m ((c : Thread nD τ).loc main_arg9) := (C_keep_main_arg9 (W7 m ρ c)).trans (a7_main_arg9 m ρ c)
theorem a10_main_arg10 : W10 m ρ c (Proc.devRef .tc main_arg10) = m ((c : Thread nD τ).loc main_arg10) := (C_keep_main_arg10 (W7 m ρ c)).trans (a7_main_arg10 m ρ c)
theorem a10_main_arg11 : W10 m ρ c (Proc.devRef .tc main_arg11) = m ((c : Thread nD τ).loc main_arg11) := (C_keep_main_arg11 (W7 m ρ c)).trans (a7_main_arg11 m ρ c)
theorem a10_main_arg12 : W10 m ρ c (Proc.devRef .tc main_arg12) = m ((c : Thread nD τ).loc main_arg12) := (C_keep_main_arg12 (W7 m ρ c)).trans (a7_main_arg12 m ρ c)
theorem e3_main_v3 : W3 m ρ c (Proc.devRef .tc main_v3) = Cert.Spec.src (m ((c : Thread nD τ).loc main_arg1)) := A_v3 (W0 m ρ c)
theorem e4_main_v3 : W4 m ρ c (Proc.devRef .tc main_v3) = Cert.Spec.src (m ((c : Thread nD τ).loc main_arg1)) := (W4_of_ne m ρ c main_v3 (by decide)).trans (e3_main_v3 m ρ c)
theorem e6_main_v3 : W6 m ρ c (Proc.devRef .tc main_v3) = Cert.Spec.src (m ((c : Thread nD τ).loc main_arg1)) := (B_keep_main_v3 (W4 m ρ c)).trans (e4_main_v3 m ρ c)
theorem e7_main_v3 : W7 m ρ c (Proc.devRef .tc main_v3) = Cert.Spec.src (m ((c : Thread nD τ).loc main_arg1)) := (W7_of_ne m ρ c main_v3 (by decide)).trans (e6_main_v3 m ρ c)
theorem e3_main_v6 : W3 m ρ c (Proc.devRef .tc main_v6) = Cert.Spec.dst (m ((c : Thread nD τ).loc main_arg1)) := A_v6 (W0 m ρ c)
theorem e4_main_v6 : W4 m ρ c (Proc.devRef .tc main_v6) = Cert.Spec.dst (m ((c : Thread nD τ).loc main_arg1)) := (W4_of_ne m ρ c main_v6 (by decide)).trans (e3_main_v6 m ρ c)
theorem e6_main_v6 : W6 m ρ c (Proc.devRef .tc main_v6) = Cert.Spec.dst (m ((c : Thread nD τ).loc main_arg1)) := (B_keep_main_v6 (W4 m ρ c)).trans (e4_main_v6 m ρ c)
theorem e7_main_v6 : W7 m ρ c (Proc.devRef .tc main_v6) = Cert.Spec.dst (m ((c : Thread nD τ).loc main_arg1)) := (W7_of_ne m ρ c main_v6 (by decide)).trans (e6_main_v6 m ρ c)
theorem e3_main_v29 : W3 m ρ c (Proc.devRef .tc main_v29) = Cert.Spec.nrm (m ((c : Thread nD τ).loc main_arg1)) := A_v29 (W0 m ρ c)
theorem e4_main_v29 : W4 m ρ c (Proc.devRef .tc main_v29) = Cert.Spec.nrm (m ((c : Thread nD τ).loc main_arg1)) := (W4_of_ne m ρ c main_v29 (by decide)).trans (e3_main_v29 m ρ c)
theorem e6_main_v29 : W6 m ρ c (Proc.devRef .tc main_v29) = Cert.Spec.nrm (m ((c : Thread nD τ).loc main_arg1)) := (B_keep_main_v29 (W4 m ρ c)).trans (e4_main_v29 m ρ c)
theorem e7_main_v29 : W7 m ρ c (Proc.devRef .tc main_v29) = Cert.Spec.nrm (m ((c : Thread nD τ).loc main_arg1)) := (W7_of_ne m ρ c main_v29 (by decide)).trans (e6_main_v29 m ρ c)

/-! ## The three regions' outputs and the layers between them -/

/-- The first region leaves x · W1. -/
theorem x30 : W4 m ρ c (Proc.devRef .tc main_v30) = Cert.Spec.mm1 (F := Ideal) (m ((c : Thread nD τ).loc main_arg0)) (m ((c : Thread nD τ).loc main_arg3)) :=
  (W4_arr m ρ c 2).trans ((Cert.KernelIdeal.MatVal.region0 (V3 m ρ) c).trans (congrArg₂ (Cert.Spec.mm1 (F := Ideal)) (a3_main_arg0 m ρ c) (a3_main_arg3 m ρ c)))

/-- The first layer. -/
theorem x47 : W6 m ρ c (Proc.devRef .tc main_v47) = Cert.Spec.conv128 (F := Ideal) (Cert.Spec.mm1 (m ((c : Thread nD τ).loc main_arg0)) (m ((c : Thread nD τ).loc main_arg3))) (m ((c : Thread nD τ).loc main_arg1)) (m ((c : Thread nD τ).loc main_arg4)) := by
  refine (B_v47 (W4 m ρ c)).trans ?_
  rw [x30 m ρ c, e4_main_v3, e4_main_v6, e4_main_v29, a4_main_arg4]
  rfl

/-- The second region leaves (first layer) · W2. -/
theorem x48 : W7 m ρ c (Proc.devRef .tc main_v48)
    = Cert.Spec.mm2 (F := Ideal) (Cert.Spec.conv128 (Cert.Spec.mm1 (m ((c : Thread nD τ).loc main_arg0)) (m ((c : Thread nD τ).loc main_arg3))) (m ((c : Thread nD τ).loc main_arg1)) (m ((c : Thread nD τ).loc main_arg4))) (m ((c : Thread nD τ).loc main_arg5)) :=
  (W7_arr m ρ c 2).trans ((Cert.KernelIdeal.MatVal.region1 (V6 m ρ) c).trans (congrArg₂ (Cert.Spec.mm2 (F := Ideal)) (x47 m ρ c) (a6_main_arg5 m ρ c)))

/-- The per-graph sums of the second layer. -/
theorem x68 : W10 m ρ c (Proc.devRef .tc main_v68)
    = Cert.Spec.pooled (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (C_v68 (W7 m ρ c)).trans ?_
  rw [x48 m ρ c, e7_main_v3, e7_main_v6, e7_main_v29, a7_main_arg6, a7_main_arg2]
  rfl

/-- The second result: the last region only reads the per-graph sums. -/
theorem val68 : W11 m ρ c (Proc.devRef .tc main_v68)
    = Cert.Spec.pooled (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W11_arr m ρ c 0).trans (((dat2 (V10 m ρ) c).arrAt_in 0 rfl _).trans ((A_eq2 (V10 m ρ) c 0).trans (x68 m ρ c)))

/-- The tail applied to equal arguments. -/
theorem tail_congr {p p' : Cert.Spec.Ct Ideal Cert.ReferenceIdeal.S512x64 .f32} {g g' b b' : Cert.Spec.Ct Ideal Cert.ReferenceIdeal.S64 .f32}
    {w1 w1' : Cert.Spec.Ct Ideal Cert.ReferenceIdeal.S64x24 .f32} {c1 c1' : Cert.Spec.Ct Ideal Cert.ReferenceIdeal.S24 .f32}
    {w2 w2' : Cert.Spec.Ct Ideal Cert.ReferenceIdeal.S24x1 .f32} {c2 c2' : Cert.Spec.Ct Ideal Cert.ReferenceIdeal.S1 .f32}
    (hp : p = p') (hg : g = g') (hb : b = b') (h1 : w1 = w1') (h2 : c1 = c1') (h3 : w2 = w2') (h4 : c2 = c2') :
    Cert.Spec.tail (F := Ideal) p g b w1 c1 w2 c2 = Cert.Spec.tail p' g' b' w1' c1' w2' c2' := by
  subst hp hg hb h1 h2 h3 h4; rfl

/-- The first result: the last region's output is the tail of the per-graph sums. -/
theorem val69 : W11 m ρ c (Proc.devRef .tc main_v69)
    = Cert.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W11_arr m ρ c 7).trans ((Cert.KernelIdeal.TailVal.region2 (V10 m ρ) c).trans
    (tail_congr (x68 m ρ c) (a10_main_arg7 m ρ c) (a10_main_arg8 m ρ c) (a10_main_arg9 m ρ c) (a10_main_arg10 m ρ c)
      (a10_main_arg11 m ρ c) (a10_main_arg12 m ρ c)))

end Chain

end Cert.KernelIdeal.KFold

end
-- ==== Proof.RefOps.lean ====
/-
  The reference program's @main as lists of its host operations, one list per printed window of statements, the
  operations of each called function standing at its call site over that call's own buffers; each window of @main is
  the straight line of its list, @main is the straight line of the three lists joined, and every operation touches
  TensorCore buffers only.
-/
import proofs.«141279_j45071386804958_1_alg».proof.ReferenceIdeal
import Idealize.ShloMosaic.Lib.StableHlo.Run

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- Statements 1 … 60: the edge rows with the self-loops appended, the degree sums, their inverse square roots where positive (the `where` function's three operations inline), the edge weights, the first product, gather, weighting, scatter-add, bias and the first rectifier (its three operations inline), and the constant one of the second layer's degree sums. -/
abbrev ops0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S100000 ![] bcast_S_S100000),
    StableHlo.TRef.ternary (.of main_v12) (.of main_v13) main_call0.v1 main_call0.v2 select,
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v46) main_call1.v0 main_call1.v1 maximumf,
    StableHlo.nullary main_cst_9 (constant S_ .f32 0x3F800000#32) ]

/-- Statements 61 … 120: the degree sums, inverse square roots and edge weights once more, the second product, gather, weighting, scatter-add, bias and rectifier (inline), the per-graph sums, and the column means. -/
abbrev ops1 : List (HloOp τ sig (Elt F)) :=
  [ StableHlo.unary main_cst_9 main_v48 (broadcastInDim S1700000 ![] bcast_S_S1700000 : (⟨S_, .f32⟩ : BufTy).Contents (Elt F) → (⟨S1700000, .f32⟩ : BufTy).Contents (Elt F)),
    StableHlo.nullary main_cst_10 (constant S_ .f32 0x00000000#32),
    StableHlo.unary main_cst_10 main_v49 (broadcastInDim S100000 ![] bcast_S_S100000 : (⟨S_, .f32⟩ : BufTy).Contents (Elt F) → (⟨S100000, .f32⟩ : BufTy).Contents (Elt F)),
    StableHlo.unary main_v6 main_v50 (broadcastInDim S1700000x1 ![0] bcast_S1700000_S1700000x1_0 : (⟨S1700000, .i32⟩ : BufTy).Contents (Elt F) → (⟨S1700000x1, .i32⟩ : BufTy).Contents (Elt F)),
    StableHlo.ternary main_v49 main_v50 main_v48 main_v51 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_11 (constant S_ .f32 0x00000000#32),
    StableHlo.unary main_cst_11 main_v52 (broadcastInDim S100000 ![] bcast_S_S100000 : (⟨S_, .f32⟩ : BufTy).Contents (Elt F) → (⟨S100000, .f32⟩ : BufTy).Contents (Elt F)),
    StableHlo.binary main_v51 main_v52 main_v53 (cmpf .ogt : (⟨S100000, .f32⟩ : BufTy).Contents (Elt F) → (⟨S100000, .f32⟩ : BufTy).Contents (Elt F) → (⟨S100000, .i1⟩ : BufTy).Contents (Elt F)),
    StableHlo.unary main_v51 main_v54 (Host.rsqrt : (⟨S100000, .f32⟩ : BufTy).Contents (Elt F) → (⟨S100000, .f32⟩ : BufTy).Contents (Elt F)),
    StableHlo.nullary main_cst_12 (constant S_ .f32 0x00000000#32),
    StableHlo.TRef.unary (.of main_cst_12) main_call2.v0 id,
    StableHlo.TRef.unary main_call2.v0 main_call2.v1 (broadcastInDim S100000 ![] bcast_S_S100000),
    StableHlo.TRef.ternary (.of main_v53) (.of main_v54) main_call2.v1 main_call2.v2 select,
    StableHlo.nullary main_c_13 (constantI S_ 32 0#32),
    StableHlo.unary main_c_13 main_v56 (broadcastInDim S1700000 ![] bcast_S_S1700000 : (⟨S_, .i32⟩ : BufTy).Contents (Elt F) → (⟨S1700000, .i32⟩ : BufTy).Contents (Elt F)),
    StableHlo.binary main_v3 main_v56 main_v57 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v58 (broadcastInDim S1700000 ![] bcast_S_S1700000 : (⟨S_, .i32⟩ : BufTy).Contents (Elt F) → (⟨S1700000, .i32⟩ : BufTy).Contents (Elt F)),
    StableHlo.binary main_v3 main_v58 main_v59 (addi : (⟨S1700000, .i32⟩ : BufTy).Contents (Elt F) → (⟨S1700000, .i32⟩ : BufTy).Contents (Elt F) → (⟨S1700000, .i32⟩ : BufTy).Contents (Elt F)),
    StableHlo.ternary main_v57 main_v59 main_v3 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v60 main_v61 (broadcastInDim S1700000x1 ![0] bcast_S1700000_S1700000x1_0 : (⟨S1700000, .i32⟩ : BufTy).Contents (Elt F) → (⟨S1700000x1, .i32⟩ : BufTy).Contents (Elt F)),
    StableHlo.binary main_v55 main_v61 main_v62 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_15 (constantI S_ 32 0#32),
    StableHlo.unary main_c_15 main_v63 (broadcastInDim S1700000 ![] bcast_S_S1700000 : (⟨S_, .i32⟩ : BufTy).Contents (Elt F) → (⟨S1700000, .i32⟩ : BufTy).Contents (Elt F)),
    StableHlo.binary main_v6 main_v63 main_v64 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v65 (broadcastInDim S1700000 ![] bcast_S_S1700000 : (⟨S_, .i32⟩ : BufTy).Contents (Elt F) → (⟨S1700000, .i32⟩ : BufTy).Contents (Elt F)),
    StableHlo.binary main_v6 main_v65 main_v66 (addi : (⟨S1700000, .i32⟩ : BufTy).Contents (Elt F) → (⟨S1700000, .i32⟩ : BufTy).Contents (Elt F) → (⟨S1700000, .i32⟩ : BufTy).Contents (Elt F)),
    StableHlo.ternary main_v64 main_v66 main_v6 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v67 main_v68 (broadcastInDim S1700000x1 ![0] bcast_S1700000_S1700000x1_0 : (⟨S1700000, .i32⟩ : BufTy).Contents (Elt F) → (⟨S1700000x1, .i32⟩ : BufTy).Contents (Elt F)),
    StableHlo.binary main_v55 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v62 main_v69 main_v70 (mulf : (⟨S1700000, .f32⟩ : BufTy).Contents (Elt F) → (⟨S1700000, .f32⟩ : BufTy).Contents (Elt F) → (⟨S1700000, .f32⟩ : BufTy).Contents (Elt F)),
    StableHlo.binary main_v47 main_arg5 main_v71 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c_17 (constantI S_ 32 0#32),
    StableHlo.unary main_c_17 main_v72 (broadcastInDim S1700000 ![] bcast_S_S1700000 : (⟨S_, .i32⟩ : BufTy).Contents (Elt F) → (⟨S1700000, .i32⟩ : BufTy).Contents (Elt F)),
    StableHlo.binary main_v3 main_v72 main_v73 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v74 (broadcastInDim S1700000 ![] bcast_S_S1700000 : (⟨S_, .i32⟩ : BufTy).Contents (Elt F) → (⟨S1700000, .i32⟩ : BufTy).Contents (Elt F)),
    StableHlo.binary main_v3 main_v74 main_v75 (addi : (⟨S1700000, .i32⟩ : BufTy).Contents (Elt F) → (⟨S1700000, .i32⟩ : BufTy).Contents (Elt F) → (⟨S1700000, .i32⟩ : BufTy).Contents (Elt F)),
    StableHlo.ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v76 main_v77 (broadcastInDim S1700000x1 ![0] bcast_S1700000_S1700000x1_0 : (⟨S1700000, .i32⟩ : BufTy).Contents (Elt F) → (⟨S1700000x1, .i32⟩ : BufTy).Contents (Elt F)),
    StableHlo.binary main_v71 main_v77 main_v78 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v70 main_v79 (broadcastInDim S1700000x1 ![0] bcast_S1700000_S1700000x1_0 : (⟨S1700000, .f32⟩ : BufTy).Contents (Elt F) → (⟨S1700000x1, .f32⟩ : BufTy).Contents (Elt F)),
    StableHlo.unary main_v79 main_v80 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v78 main_v80 main_v81 (mulf : (⟨S1700000x64, .f32⟩ : BufTy).Contents (Elt F) → (⟨S1700000x64, .f32⟩ : BufTy).Contents (Elt F) → (⟨S1700000x64, .f32⟩ : BufTy).Contents (Elt F)),
    StableHlo.nullary main_cst_19 (constant S_ .f32 0x00000000#32),
    StableHlo.unary main_cst_19 main_v82 (broadcastInDim S100000x64 ![] bcast_S_S100000x64 : (⟨S_, .f32⟩ : BufTy).Contents (Elt F) → (⟨S100000x64, .f32⟩ : BufTy).Contents (Elt F)),
    StableHlo.unary main_v6 main_v83 (broadcastInDim S1700000x1 ![0] bcast_S1700000_S1700000x1_0 : (⟨S1700000, .i32⟩ : BufTy).Contents (Elt F) → (⟨S1700000x1, .i32⟩ : BufTy).Contents (Elt F)),
    StableHlo.ternary main_v82 main_v83 main_v81 main_v84 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg6 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v87) main_call3.v0 main_call3.v1 maximumf,
    StableHlo.nullary main_cst_20 (constant S_ .f32 0x00000000#32),
    StableHlo.unary main_cst_20 main_v89 (broadcastInDim S512x64 ![] bcast_S_S512x64 : (⟨S_, .f32⟩ : BufTy).Contents (Elt F) → (⟨S512x64, .f32⟩ : BufTy).Contents (Elt F)),
    StableHlo.unary main_arg2 main_v90 (broadcastInDim S100000x1 ![0] bcast_S100000_S100000x1_0 : (⟨S100000, .i32⟩ : BufTy).Contents (Elt F) → (⟨S100000x1, .i32⟩ : BufTy).Contents (Elt F)),
    StableHlo.ternary main_v89 main_v90 main_v88 main_v91 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    StableHlo.nullary main_cst_21 (constant S_ .f32 0x00000000#32),
    StableHlo.binary main_v91 main_cst_21 main_v92 ((fun x v => Host.reduceAdd x v reducesTo_S512x64_S64_d0 h_S_) : (⟨S512x64, .f32⟩ : BufTy).Contents (Elt F) → (⟨S_, .f32⟩ : BufTy).Contents (Elt F) → (⟨S64, .f32⟩ : BufTy).Contents (Elt F)),
    StableHlo.nullary main_cst_22 (constant S_ .f32 0x44000000#32),
    StableHlo.unary main_cst_22 main_v93 (broadcastInDim S64 ![] bcast_S_S64 : (⟨S_, .f32⟩ : BufTy).Contents (Elt F) → (⟨S64, .f32⟩ : BufTy).Contents (Elt F)),
    StableHlo.binary main_v92 main_v93 main_v94 (Host.divf : (⟨S64, .f32⟩ : BufTy).Contents (Elt F) → (⟨S64, .f32⟩ : BufTy).Contents (Elt F) → (⟨S64, .f32⟩ : BufTy).Contents (Elt F)) ]

/-- Statements 121 … 148: the variance function's operations inline (its own `where` inside it), the normalisation, the two dense layers with the rectifier between them (inline). -/
abbrev ops2 : List (HloOp τ sig (Elt F)) :=
  [ StableHlo.nullary main_c_23 (constantI S_ 32 0#32),
    StableHlo.TRef.nullary main_call4.cst (constant S_ .f32 0x00000000#32),
    StableHlo.TRef.binary (.of main_v91) main_call4.cst main_call4.v0 (fun x v => Host.reduceAdd x v reducesTo_S512x64_S64_d0 h_S_),
    StableHlo.TRef.unary main_call4.v0 main_call4.v1 (broadcastInDim S1x64 ![1] bcast_S64_S1x64_1),
    StableHlo.TRef.nullary main_call4.cst_0 (constant S_ .f32 0x44000000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S512x64 ![0, 1] bcast_S1x64_S512x64_0_1),
    StableHlo.TRef.binary (.of main_v91) main_call4.v4 main_call4.v5 subf,
    StableHlo.TRef.binary main_call4.v5 main_call4.v5 main_call4.v6 mulf,
    StableHlo.TRef.unary (.of main_c_23) main_call4.v7 (sitofp .f32),
    StableHlo.TRef.nullary main_call4.cst_1 (constant S_ .f32 0x44000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S512x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v94 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S512x64 ![0, 1] bcast_S1x64_S512x64_0_1 : (⟨S1x64, .f32⟩ : BufTy).Contents (Elt F) → (⟨S512x64, .f32⟩ : BufTy).Contents (Elt F)),
    StableHlo.binary main_v91 main_v97 main_v98 (subf : (⟨S512x64, .f32⟩ : BufTy).Contents (Elt F) → (⟨S512x64, .f32⟩ : BufTy).Contents (Elt F) → (⟨S512x64, .f32⟩ : BufTy).Contents (Elt F)),
    StableHlo.nullary main_cst_24 (constant S_ .f32 0x3727C5AC#32),
    StableHlo.unary main_cst_24 main_v99 (broadcastInDim S64 ![] bcast_S_S64 : (⟨S_, .f32⟩ : BufTy).Contents (Elt F) → (⟨S64, .f32⟩ : BufTy).Contents (Elt F)),
    StableHlo.binary main_v95 main_v99 main_v100 (addf : (⟨S64, .f32⟩ : BufTy).Contents (Elt F) → (⟨S64, .f32⟩ : BufTy).Contents (Elt F) → (⟨S64, .f32⟩ : BufTy).Contents (Elt F)),
    StableHlo.unary main_v100 main_v101 (Host.rsqrt : (⟨S64, .f32⟩ : BufTy).Contents (Elt F) → (⟨S64, .f32⟩ : BufTy).Contents (Elt F)),
    StableHlo.unary main_v101 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S512x64 ![0, 1] bcast_S1x64_S512x64_0_1 : (⟨S1x64, .f32⟩ : BufTy).Contents (Elt F) → (⟨S512x64, .f32⟩ : BufTy).Contents (Elt F)),
    StableHlo.binary main_v98 main_v103 main_v104 (mulf : (⟨S512x64, .f32⟩ : BufTy).Contents (Elt F) → (⟨S512x64, .f32⟩ : BufTy).Contents (Elt F) → (⟨S512x64, .f32⟩ : BufTy).Contents (Elt F)),
    StableHlo.unary main_arg7 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S512x64 ![0, 1] bcast_S1x64_S512x64_0_1 : (⟨S1x64, .f32⟩ : BufTy).Contents (Elt F) → (⟨S512x64, .f32⟩ : BufTy).Contents (Elt F)),
    StableHlo.binary main_v104 main_v106 main_v107 (mulf : (⟨S512x64, .f32⟩ : BufTy).Contents (Elt F) → (⟨S512x64, .f32⟩ : BufTy).Contents (Elt F) → (⟨S512x64, .f32⟩ : BufTy).Contents (Elt F)),
    StableHlo.unary main_arg8 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S512x64 ![0, 1] bcast_S1x64_S512x64_0_1 : (⟨S1x64, .f32⟩ : BufTy).Contents (Elt F) → (⟨S512x64, .f32⟩ : BufTy).Contents (Elt F)),
    StableHlo.binary main_v107 main_v109 main_v110 (addf : (⟨S512x64, .f32⟩ : BufTy).Contents (Elt F) → (⟨S512x64, .f32⟩ : BufTy).Contents (Elt F) → (⟨S512x64, .f32⟩ : BufTy).Contents (Elt F)),
    StableHlo.binary main_v110 main_arg9 main_v111 ((fun l r => Host.dotGeneral dot_S512x64_S64x24_S512x24_1_0_0_1_n_n none l r) : (⟨S512x64, .f32⟩ : BufTy).Contents (Elt F) → (⟨S64x24, .f32⟩ : BufTy).Contents (Elt F) → (⟨S512x24, .f32⟩ : BufTy).Contents (Elt F)),
    StableHlo.unary main_arg10 main_v112 (broadcastInDim S1x24 ![1] bcast_S24_S1x24_1 : (⟨S24, .f32⟩ : BufTy).Contents (Elt F) → (⟨S1x24, .f32⟩ : BufTy).Contents (Elt F)),
    StableHlo.unary main_v112 main_v113 (broadcastInDim S512x24 ![0, 1] bcast_S1x24_S512x24_0_1 : (⟨S1x24, .f32⟩ : BufTy).Contents (Elt F) → (⟨S512x24, .f32⟩ : BufTy).Contents (Elt F)),
    StableHlo.binary main_v111 main_v113 main_v114 (addf : (⟨S512x24, .f32⟩ : BufTy).Contents (Elt F) → (⟨S512x24, .f32⟩ : BufTy).Contents (Elt F) → (⟨S512x24, .f32⟩ : BufTy).Contents (Elt F)),
    StableHlo.TRef.nullary main_call5.cst (constant S_ .f32 0x00000000#32),
    StableHlo.TRef.unary main_call5.cst main_call5.v0 (broadcastInDim S512x24 ![] bcast_S_S512x24),
    StableHlo.TRef.binary (.of main_v114) main_call5.v0 main_call5.v1 maximumf,
    StableHlo.binary main_v115 main_arg11 main_v116 ((fun l r => Host.dotGeneral dot_S512x24_S24x1_S512x1_1_0_0_1_n_n none l r) : (⟨S512x24, .f32⟩ : BufTy).Contents (Elt F) → (⟨S24x1, .f32⟩ : BufTy).Contents (Elt F) → (⟨S512x1, .f32⟩ : BufTy).Contents (Elt F)),
    StableHlo.unary main_arg12 main_v117 (broadcastInDim S1x1 ![1] bcast_S1_S1x1_1 : (⟨S1, .f32⟩ : BufTy).Contents (Elt F) → (⟨S1x1, .f32⟩ : BufTy).Contents (Elt F)),
    StableHlo.unary main_v117 main_v118 (broadcastInDim S512x1 ![0, 1] bcast_S1x1_S512x1_0_1 : (⟨S1x1, .f32⟩ : BufTy).Contents (Elt F) → (⟨S512x1, .f32⟩ : BufTy).Contents (Elt F)),
    StableHlo.binary main_v116 main_v118 main_v119 (addf : (⟨S512x1, .f32⟩ : BufTy).Contents (Elt F) → (⟨S512x1, .f32⟩ : BufTy).Contents (Elt F) → (⟨S512x1, .f32⟩ : BufTy).Contents (Elt F)) ]

/-- @main's operations in order. -/
abbrev ops : List (HloOp τ sig (Elt F)) := ops0 ++ (ops1 ++ ops2)

set_option maxRecDepth 8192 in
set_option maxHeartbeats 4000000 in
/-- Window 0 of @main is the straight line of its list: the called functions' definitions unfolded at their calls and the
    calls' records at their fields, both sides are one chain of steps once sequencing is reassociated. -/
theorem main_part0_eq (c : Dev nD) : main_part0 (F := F) c = seq ops0 := by
  simp only [main_part0, fn_where.body, fn_relu.body, seq, bind_assoc, pure_bind] <;> rfl

set_option maxRecDepth 8192 in
set_option maxHeartbeats 4000000 in
/-- Window 1 of @main is the straight line of its list: the called functions' definitions unfolded at their calls and the
    calls' records at their fields, both sides are one chain of steps once sequencing is reassociated. -/
theorem main_part1_eq (c : Dev nD) : main_part1 (F := F) c = seq ops1 := by
  simp only [main_part1, fn_where.body, fn_relu_0.body, seq, bind_assoc, pure_bind] <;> rfl

set_option maxRecDepth 8192 in
set_option maxHeartbeats 4000000 in
/-- Window 2 of @main is the straight line of its list: the called functions' definitions unfolded at their calls and the
    calls' records at their fields, both sides are one chain of steps once sequencing is reassociated. -/
theorem main_part2_eq (c : Dev nD) : main_part2 (F := F) c = seq ops2 := by
  simp only [main_part2, fn_var.body, fn_where_1.body, fn_relu_2.body, seq, bind_assoc, pure_bind] <;> rfl

/-- @main is the straight line of the three lists joined. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub ..⟩

set_option maxRecDepth 8192 in
theorem ops1_sub : (ops1 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub ..⟩

set_option maxRecDepth 8192 in
theorem ops2_sub : (ops2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

set_option maxRecDepth 8192 in
/-- Every operation of window 0 determines its results. -/
theorem ops0_fresh : ∀ op ∈ (ops0 : List (HloOp τ sig (Elt F))), op.fresh = ∅ := by
  intro _ h; (repeat (cases h with | head => rfl | tail _ h => ?_)); exact nomatch h

set_option maxRecDepth 8192 in
/-- Every operation of window 1 determines its results. -/
theorem ops1_fresh : ∀ op ∈ (ops1 : List (HloOp τ sig (Elt F))), op.fresh = ∅ := by
  intro _ h; (repeat (cases h with | head => rfl | tail _ h => ?_)); exact nomatch h

set_option maxRecDepth 8192 in
/-- Every operation of window 2 determines its results. -/
theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, List.mem_append] at h
  rcases h with h | h | h
  exacts [ops0_fresh op h, ops1_fresh op h, ops2_fresh op h]

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRun.lean ====
/-
  The reference program's two results read as whole-array terms: each window's fold of its operation list, read at
  the buffers the next window or the caller uses, is by computation the corresponding composition of host-side array
  operations over what the window was given; composed over the three windows the results are the specification's
  `out` and `pooled` of the thirteen arguments, and the arguments are unchanged.
-/
import proofs.«141279_j45071386804958_1_alg».proof.Proof.RefOps
import proofs.«141279_j45071386804958_1_alg».proof.Proof.Spec

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

open Cert.Spec (Ct)

/-! ## Stage functions with a window's inputs as parameters

The second layer recomputes the degree sums from the scalar one that the first window leaves in a buffer, and the
normalisation reads the column means from the buffer the second window leaves; the specification's terms with those
two values as parameters, and the specification's own terms as their instances. -/

/-- The degree sums as a scatter-add of a broadcast scalar `one` at the edge targets `d`. -/
def degP (one : Ct F S_ .f32) (d : Ct F S1700000 .i32) : Ct F S100000 .f32 :=
  Host.scatterAdd scatter_S100000_S1700000x1_S1700000_n_0_0_1
    (broadcastInDim S100000 ![] bcast_S_S100000 Spec.zero0)
    (Spec.sidx d)
    (broadcastInDim S1700000 ![] bcast_S_S1700000 one)

/-- The inverse square roots of those sums where positive, zero elsewhere. -/
def disP (one : Ct F S_ .f32) (d : Ct F S1700000 .i32) : Ct F S100000 .f32 :=
  select (cmpf .ogt (degP one d) (broadcastInDim S100000 ![] bcast_S_S100000 Spec.zero0))
    (Host.rsqrt (degP one d))
    (broadcastInDim S100000 ![] bcast_S_S100000 Spec.zero0)

/-- The edge weights: the product of that vector at an edge's source and at its target. -/
def nrmP (one : Ct F S_ .f32) (s d : Ct F S1700000 .i32) : Ct F S1700000 .f32 :=
  mulf (Host.gather gather_S100000_S1700000x1_S1700000_n_0_n_n_0_1_1 (disP one d) (Spec.gidx s))
    (Host.gather gather_S100000_S1700000x1_S1700000_n_0_n_n_0_1_1 (disP one d) (Spec.gidx d))

/-- At the scalar one and a graph's edge rows these are the graph's edge weights. -/
theorem nrmP_eq (ei : Ct F S2x1600000 .i32) :
    nrmP (constant S_ .f32 0x3F800000#32) (Spec.src ei) (Spec.dst ei) = Spec.nrm ei := rfl

/-- The normalised array with the column means `mean` given. -/
def normedP (p : Ct F S512x64 .f32) (mean gamma beta : Ct F S64 .f32) : Ct F S512x64 .f32 :=
  addf
    (mulf
      (mulf (subf p (Spec.rows64 mean))
        (Spec.rows64 (Host.rsqrt (addf (Spec.colVar p) (broadcastInDim S64 ![] bcast_S_S64 (constant S_ .f32 0x3727C5AC#32))))))
      (Spec.rows64 gamma))
    (Spec.rows64 beta)

/-- The first result from the per-graph sums and their column means. -/
def tailP (p : Ct F S512x64 .f32) (mean gamma beta : Ct F S64 .f32) (wo1 : Ct F S64x24 .f32) (bo1 : Ct F S24 .f32)
    (wo2 : Ct F S24x1 .f32) (bo2 : Ct F S1 .f32) : Ct F S512x1 .f32 :=
  addf
    (Host.dotGeneral dot_S512x24_S24x1_S512x1_1_0_0_1_n_n none
      (maximumf
        (addf (Host.dotGeneral dot_S512x64_S64x24_S512x24_1_0_0_1_n_n none (normedP p mean gamma beta) wo1)
          (broadcastInDim S512x24 ![0, 1] bcast_S1x24_S512x24_0_1 (broadcastInDim S1x24 ![1] bcast_S24_S1x24_1 bo1)))
        (broadcastInDim S512x24 ![] bcast_S_S512x24 Spec.zero0))
      wo2)
    (broadcastInDim S512x1 ![0, 1] bcast_S1x1_S512x1_0_1 (broadcastInDim S1x1 ![1] bcast_S1_S1x1_1 bo2))

/-- At the array's own column means it is the specification's. -/
theorem tailP_eq (p : Ct F S512x64 .f32) (gamma beta : Ct F S64 .f32) (wo1 : Ct F S64x24 .f32) (bo1 : Ct F S24 .f32)
    (wo2 : Ct F S24x1 .f32) (bo2 : Ct F S1 .f32) :
    tailP p (Spec.colMean p) gamma beta wo1 bo1 wo2 bo2 = Spec.tail p gamma beta wo1 bo1 wo2 bo2 := rfl

/-- The per-graph sums after the second layer, from what the first window leaves: the edge rows `s`, `d`, the scalar
    `one`, the first layer's result `h`. -/
def pooledP (one : Ct F S_ .f32) (s d : Ct F S1700000 .i32) (h : Ct F S100000x128 .f32) (batch : Ct F S100000 .i32)
    (w2 : Ct F S128x64 .f32) (b2 : Ct F S64 .f32) : Ct F S512x64 .f32 :=
  Spec.pool (Spec.convP64 (Spec.mm2 h w2) s d (nrmP one s d) b2) batch

/-! ## The fold at the buffers, window by window -/

/-- A fold over two lists joined is the second's fold over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V : Valuation τ sig (Elt F)) : after ops V = after ops2 (after ops1 (after ops0 V)) := by
  rw [ops, after_app, after_app]

attribute [local irreducible] Host.scatterAdd Host.gather Host.reduceAdd Host.rsqrt Host.divf concatenate extractStridedSlice shapeCast broadcastInDim iotaInDim in
set_option maxRecDepth 8192 in
set_option maxHeartbeats 1000000 in
/-- The first window leaves the edge sources with the self-loops appended. -/
theorem w0_v3 (V : Valuation τ sig (Elt F)) :
    after ops0 V (main_v3 : DevRef τ sig)
      = Spec.src (V (main_arg1 : DevRef τ sig)) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- The first window leaves the edge targets with the self-loops appended. -/
theorem w0_v6 (V : Valuation τ sig (Elt F)) :
    after ops0 V (main_v6 : DevRef τ sig)
      = Spec.dst (V (main_arg1 : DevRef τ sig)) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- The first window leaves the scalar one. -/
theorem w0_cst9 (V : Valuation τ sig (Elt F)) :
    after ops0 V (main_cst_9 : DevRef τ sig)
      = constant S_ .f32 0x3F800000#32 := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- The first window leaves the first layer's result. -/
theorem w0_v47 (V : Valuation τ sig (Elt F)) :
    after ops0 V (main_v47 : DevRef τ sig)
      = Spec.conv128 (Spec.mm1 (V (main_arg0 : DevRef τ sig)) (V (main_arg3 : DevRef τ sig))) (V (main_arg1 : DevRef τ sig)) (V (main_arg4 : DevRef τ sig)) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- The second window leaves the per-graph sums. -/
theorem w1_v91 (V : Valuation τ sig (Elt F)) :
    after ops1 V (main_v91 : DevRef τ sig)
      = pooledP (V (main_cst_9 : DevRef τ sig)) (V (main_v3 : DevRef τ sig)) (V (main_v6 : DevRef τ sig)) (V (main_v47 : DevRef τ sig)) (V (main_arg2 : DevRef τ sig)) (V (main_arg5 : DevRef τ sig)) (V (main_arg6 : DevRef τ sig)) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- The second window leaves their column means. -/
theorem w1_v94 (V : Valuation τ sig (Elt F)) :
    after ops1 V (main_v94 : DevRef τ sig)
      = Spec.colMean (pooledP (V (main_cst_9 : DevRef τ sig)) (V (main_v3 : DevRef τ sig)) (V (main_v6 : DevRef τ sig)) (V (main_v47 : DevRef τ sig)) (V (main_arg2 : DevRef τ sig)) (V (main_arg5 : DevRef τ sig)) (V (main_arg6 : DevRef τ sig))) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- The third window leaves the first result. -/
theorem w2_v119 (V : Valuation τ sig (Elt F)) :
    after ops2 V (main_v119 : DevRef τ sig)
      = tailP (V (main_v91 : DevRef τ sig)) (V (main_v94 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- The third window keeps the per-graph sums. -/
theorem w2_v91 (V : Valuation τ sig (Elt F)) :
    after ops2 V (main_v91 : DevRef τ sig)
      = V (main_v91 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 0. -/
theorem w0_arg0 (V : Valuation τ sig (Elt F)) :
    after ops0 V (main_arg0 : DevRef τ sig)
      = V (main_arg0 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 1. -/
theorem w0_arg1 (V : Valuation τ sig (Elt F)) :
    after ops0 V (main_arg1 : DevRef τ sig)
      = V (main_arg1 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 2. -/
theorem w0_arg2 (V : Valuation τ sig (Elt F)) :
    after ops0 V (main_arg2 : DevRef τ sig)
      = V (main_arg2 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 3. -/
theorem w0_arg3 (V : Valuation τ sig (Elt F)) :
    after ops0 V (main_arg3 : DevRef τ sig)
      = V (main_arg3 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 4. -/
theorem w0_arg4 (V : Valuation τ sig (Elt F)) :
    after ops0 V (main_arg4 : DevRef τ sig)
      = V (main_arg4 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 5. -/
theorem w0_arg5 (V : Valuation τ sig (Elt F)) :
    after ops0 V (main_arg5 : DevRef τ sig)
      = V (main_arg5 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 6. -/
theorem w0_arg6 (V : Valuation τ sig (Elt F)) :
    after ops0 V (main_arg6 : DevRef τ sig)
      = V (main_arg6 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 7. -/
theorem w0_arg7 (V : Valuation τ sig (Elt F)) :
    after ops0 V (main_arg7 : DevRef τ sig)
      = V (main_arg7 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 8. -/
theorem w0_arg8 (V : Valuation τ sig (Elt F)) :
    after ops0 V (main_arg8 : DevRef τ sig)
      = V (main_arg8 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 9. -/
theorem w0_arg9 (V : Valuation τ sig (Elt F)) :
    after ops0 V (main_arg9 : DevRef τ sig)
      = V (main_arg9 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 10. -/
theorem w0_arg10 (V : Valuation τ sig (Elt F)) :
    after ops0 V (main_arg10 : DevRef τ sig)
      = V (main_arg10 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 11. -/
theorem w0_arg11 (V : Valuation τ sig (Elt F)) :
    after ops0 V (main_arg11 : DevRef τ sig)
      = V (main_arg11 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 0 keeps argument 12. -/
theorem w0_arg12 (V : Valuation τ sig (Elt F)) :
    after ops0 V (main_arg12 : DevRef τ sig)
      = V (main_arg12 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 0. -/
theorem w1_arg0 (V : Valuation τ sig (Elt F)) :
    after ops1 V (main_arg0 : DevRef τ sig)
      = V (main_arg0 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 1. -/
theorem w1_arg1 (V : Valuation τ sig (Elt F)) :
    after ops1 V (main_arg1 : DevRef τ sig)
      = V (main_arg1 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 2. -/
theorem w1_arg2 (V : Valuation τ sig (Elt F)) :
    after ops1 V (main_arg2 : DevRef τ sig)
      = V (main_arg2 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 3. -/
theorem w1_arg3 (V : Valuation τ sig (Elt F)) :
    after ops1 V (main_arg3 : DevRef τ sig)
      = V (main_arg3 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 4. -/
theorem w1_arg4 (V : Valuation τ sig (Elt F)) :
    after ops1 V (main_arg4 : DevRef τ sig)
      = V (main_arg4 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 5. -/
theorem w1_arg5 (V : Valuation τ sig (Elt F)) :
    after ops1 V (main_arg5 : DevRef τ sig)
      = V (main_arg5 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 6. -/
theorem w1_arg6 (V : Valuation τ sig (Elt F)) :
    after ops1 V (main_arg6 : DevRef τ sig)
      = V (main_arg6 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 7. -/
theorem w1_arg7 (V : Valuation τ sig (Elt F)) :
    after ops1 V (main_arg7 : DevRef τ sig)
      = V (main_arg7 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 8. -/
theorem w1_arg8 (V : Valuation τ sig (Elt F)) :
    after ops1 V (main_arg8 : DevRef τ sig)
      = V (main_arg8 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 9. -/
theorem w1_arg9 (V : Valuation τ sig (Elt F)) :
    after ops1 V (main_arg9 : DevRef τ sig)
      = V (main_arg9 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 10. -/
theorem w1_arg10 (V : Valuation τ sig (Elt F)) :
    after ops1 V (main_arg10 : DevRef τ sig)
      = V (main_arg10 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 11. -/
theorem w1_arg11 (V : Valuation τ sig (Elt F)) :
    after ops1 V (main_arg11 : DevRef τ sig)
      = V (main_arg11 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 1 keeps argument 12. -/
theorem w1_arg12 (V : Valuation τ sig (Elt F)) :
    after ops1 V (main_arg12 : DevRef τ sig)
      = V (main_arg12 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 0. -/
theorem w2_arg0 (V : Valuation τ sig (Elt F)) :
    after ops2 V (main_arg0 : DevRef τ sig)
      = V (main_arg0 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 1. -/
theorem w2_arg1 (V : Valuation τ sig (Elt F)) :
    after ops2 V (main_arg1 : DevRef τ sig)
      = V (main_arg1 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 2. -/
theorem w2_arg2 (V : Valuation τ sig (Elt F)) :
    after ops2 V (main_arg2 : DevRef τ sig)
      = V (main_arg2 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 3. -/
theorem w2_arg3 (V : Valuation τ sig (Elt F)) :
    after ops2 V (main_arg3 : DevRef τ sig)
      = V (main_arg3 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 4. -/
theorem w2_arg4 (V : Valuation τ sig (Elt F)) :
    after ops2 V (main_arg4 : DevRef τ sig)
      = V (main_arg4 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 5. -/
theorem w2_arg5 (V : Valuation τ sig (Elt F)) :
    after ops2 V (main_arg5 : DevRef τ sig)
      = V (main_arg5 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 6. -/
theorem w2_arg6 (V : Valuation τ sig (Elt F)) :
    after ops2 V (main_arg6 : DevRef τ sig)
      = V (main_arg6 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 7. -/
theorem w2_arg7 (V : Valuation τ sig (Elt F)) :
    after ops2 V (main_arg7 : DevRef τ sig)
      = V (main_arg7 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 8. -/
theorem w2_arg8 (V : Valuation τ sig (Elt F)) :
    after ops2 V (main_arg8 : DevRef τ sig)
      = V (main_arg8 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 9. -/
theorem w2_arg9 (V : Valuation τ sig (Elt F)) :
    after ops2 V (main_arg9 : DevRef τ sig)
      = V (main_arg9 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 10. -/
theorem w2_arg10 (V : Valuation τ sig (Elt F)) :
    after ops2 V (main_arg10 : DevRef τ sig)
      = V (main_arg10 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 11. -/
theorem w2_arg11 (V : Valuation τ sig (Elt F)) :
    after ops2 V (main_arg11 : DevRef τ sig)
      = V (main_arg11 : DevRef τ sig) := by
  simp only [after_cons, after_nil]
  rfl

attribute [local irreducible] Host.scatterAdd Host.gather Host.reduceAdd Host.rsqrt Host.divf concatenate extractStridedSlice shapeCast broadcastInDim iotaInDim in
set_option maxRecDepth 8192 in
set_option maxHeartbeats 1000000 in
/-- Window 2 keeps argument 12. -/
theorem w2_arg12 (V : Valuation τ sig (Elt F)) :
    after ops2 V (main_arg12 : DevRef τ sig)
      = V (main_arg12 : DevRef τ sig) := by
  simp only [after_cons, after_nil]
  rfl

/-! ## The results and the arguments over the whole program -/

/-- The second result is the specification's `pooled` of the first seven arguments. -/
theorem pooled_eq (V : Valuation τ sig (Elt F)) :
    after ops V (main_v91 : DevRef τ sig)
      = Spec.pooled (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [after_ops, w2_v91, w1_v91, w0_cst9, w0_v3, w0_v6, w0_v47, w0_arg2, w0_arg5, w0_arg6]
  unfold pooledP Spec.pooled Spec.conv64
  rw [nrmP_eq]

/-- The first result is the specification's `out` of the thirteen arguments. -/
theorem out_eq (V : Valuation τ sig (Elt F)) :
    after ops V (main_v119 : DevRef τ sig)
      = Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops, w2_v119, w1_v91, w1_v94, w0_cst9, w0_v3, w0_v6, w0_v47, w0_arg2, w0_arg5, w0_arg6,
    w1_arg7, w1_arg8, w1_arg9, w1_arg10, w1_arg11, w1_arg12, w0_arg7, w0_arg8, w0_arg9, w0_arg10, w0_arg11, w0_arg12,
    tailP_eq]
  unfold pooledP Spec.out Spec.pooled Spec.conv64
  rw [nrmP_eq]

theorem arg0_eq (V : Valuation τ sig (Elt F)) : after ops V (main_arg0 : DevRef τ sig) = V (main_arg0 : DevRef τ sig) := by
  rw [after_ops, w2_arg0, w1_arg0, w0_arg0]

theorem arg1_eq (V : Valuation τ sig (Elt F)) : after ops V (main_arg1 : DevRef τ sig) = V (main_arg1 : DevRef τ sig) := by
  rw [after_ops, w2_arg1, w1_arg1, w0_arg1]

theorem arg2_eq (V : Valuation τ sig (Elt F)) : after ops V (main_arg2 : DevRef τ sig) = V (main_arg2 : DevRef τ sig) := by
  rw [after_ops, w2_arg2, w1_arg2, w0_arg2]

theorem arg3_eq (V : Valuation τ sig (Elt F)) : after ops V (main_arg3 : DevRef τ sig) = V (main_arg3 : DevRef τ sig) := by
  rw [after_ops, w2_arg3, w1_arg3, w0_arg3]

theorem arg4_eq (V : Valuation τ sig (Elt F)) : after ops V (main_arg4 : DevRef τ sig) = V (main_arg4 : DevRef τ sig) := by
  rw [after_ops, w2_arg4, w1_arg4, w0_arg4]

theorem arg5_eq (V : Valuation τ sig (Elt F)) : after ops V (main_arg5 : DevRef τ sig) = V (main_arg5 : DevRef τ sig) := by
  rw [after_ops, w2_arg5, w1_arg5, w0_arg5]

theorem arg6_eq (V : Valuation τ sig (Elt F)) : after ops V (main_arg6 : DevRef τ sig) = V (main_arg6 : DevRef τ sig) := by
  rw [after_ops, w2_arg6, w1_arg6, w0_arg6]

theorem arg7_eq (V : Valuation τ sig (Elt F)) : after ops V (main_arg7 : DevRef τ sig) = V (main_arg7 : DevRef τ sig) := by
  rw [after_ops, w2_arg7, w1_arg7, w0_arg7]

theorem arg8_eq (V : Valuation τ sig (Elt F)) : after ops V (main_arg8 : DevRef τ sig) = V (main_arg8 : DevRef τ sig) := by
  rw [after_ops, w2_arg8, w1_arg8, w0_arg8]

theorem arg9_eq (V : Valuation τ sig (Elt F)) : after ops V (main_arg9 : DevRef τ sig) = V (main_arg9 : DevRef τ sig) := by
  rw [after_ops, w2_arg9, w1_arg9, w0_arg9]

theorem arg10_eq (V : Valuation τ sig (Elt F)) : after ops V (main_arg10 : DevRef τ sig) = V (main_arg10 : DevRef τ sig) := by
  rw [after_ops, w2_arg10, w1_arg10, w0_arg10]

theorem arg11_eq (V : Valuation τ sig (Elt F)) : after ops V (main_arg11 : DevRef τ sig) = V (main_arg11 : DevRef τ sig) := by
  rw [after_ops, w2_arg11, w1_arg11, w0_arg11]

theorem arg12_eq (V : Valuation τ sig (Elt F)) : after ops V (main_arg12 : DevRef τ sig) = V (main_arg12 : DevRef τ sig) := by
  rw [after_ops, w2_arg12, w1_arg12, w0_arg12]

/-- At the compiled mesh, for any float values, from any memory with zero counters: every weakly fair execution of the
    reference's @main terminates; its first result is the specification's `out` of the thirteen arguments' launch
    contents, its second the specification's `pooled` of the first seven, and the arguments are unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v119) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v91) = Cert.Spec.pooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v119).trans (out_eq _), (h c main_v91).trans (pooled_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_main m ρ)

/-- The same run, keeping only that the thirteen arguments are unchanged. -/
theorem run_args (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2.2) (run m ρ)

end Cert.ReferenceIdeal.RefRun

end
-- ==== Proof.lean ====
/-
  The certificate's five claims.

  Both programs compute a two-layer graph convolution followed by a per-graph sum, a batch normalisation and a
  two-layer perceptron (the specification, Proof/Spec.lean). The reference does everything with host operations;
  the kernel program does the three dense parts — x · W1, (first layer) · W2 and the normalise-and-project tail —
  in three kernel regions and the rest with the same host operations in the same order. On the extended reals a
  matrix-unit product into a zero accumulator and the host's contraction are the same finite sum, rounding an
  operand to a narrower float format is the identity, a lane reduction and the host's reduction are the same sum,
  and both programs apply the same operations in the same order everywhere else, so the results are equal term
  by term: no algebraic law and no finiteness of the inputs is used.

  Each frame claim is its program's run with the results forgotten; the idealization rewrote no operation, so
  `preserves` has nothing to state; `algebraic` puts the kernel program's run, read at its two result buffers
  (Proof/KRun.lean, Proof/KFold.lean), beside the reference's run (Proof/RefRun.lean), both ending at the
  specification's two functions of the argument arrays, which agree.
-/
import proofs.«141279_j45071386804958_1_alg».proof.Defs
import proofs.«141279_j45071386804958_1_alg».proof.Proof.Gen.Kernel
import proofs.«141279_j45071386804958_1_alg».proof.Proof.Gen.Kernel.Frame
import proofs.«141279_j45071386804958_1_alg».proof.Proof.Gen.KernelIdeal
import proofs.«141279_j45071386804958_1_alg».proof.Proof.Gen.KernelIdeal.Frame
import proofs.«141279_j45071386804958_1_alg».proof.Proof.Gen.ReferenceIdeal
import proofs.«141279_j45071386804958_1_alg».proof.Proof.Gen.Pre_finite_inputs
import proofs.«141279_j45071386804958_1_alg».proof.Proof.Spec
import proofs.«141279_j45071386804958_1_alg».proof.Proof.KRun
import proofs.«141279_j45071386804958_1_alg».proof.Proof.KFold
import proofs.«141279_j45071386804958_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results forgotten. -/
theorem frame_ri : Cert.frame_ReferenceIdeal := fun m ρ _ =>
  (θ_run Cert.ReferenceIdeal.defs _ _).mono (fun _ h c => (h c).2.2) (Cert.ReferenceIdeal.RefRun.run (F := Ideal) m ρ)

/-- Both runs end at the specification's two functions of the argument arrays, which the two memories share. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Spec.pooled (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KFold.val69 m ρ c), (h c).2.1.trans (Cert.KernelIdeal.KFold.val68 m ρ c), (h c).2.2⟩)
      (Cert.KernelIdeal.KRun.run (F := Ideal) m ρ)
  · refine (θ_run Cert.ReferenceIdeal.defs _ _).mono (fun r h c => ⟨(h c).1.trans ?_, (h c).2.1.trans ?_, (h c).2.2⟩)
      (Cert.ReferenceIdeal.RefRun.run (F := Ideal) m' ρ')
    · obtain ⟨h0, h1, h2, h3, h4, h5, h6, h7, h8, h9, h10, h11, h12⟩ := hagree c
      rw [h0, h1, h2, h3, h4, h5, h6, h7, h8, h9, h10, h11, h12]
    · obtain ⟨h0, h1, h2, h3, h4, h5, h6, -⟩ := hagree c
      rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
